-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S25000x512 : S_.BroadcastsInDim S25000x512 (![] : Fin 0 → Fin S25000x512.rank)
  reducesTo_S25000x512_S_d0_1 : S25000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S512x1 .f32) (main_arg9 : FVec F S1 .f32) (main_v33 : IVec S_ 1) : IVec S_ 1 :=
  let main_v34 : FVec F S512x1 .f32 := Host.absf main_arg8
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S512 .f32) (main_arg6 : FVec F S512x1 .f32) (main_arg7 : FVec F S1 .f32) (main_arg8 : FVec F S512x1 .f32) (main_arg9 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg6
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S25000x512 .f32) (main_arg1 : IVec S2x200000 32) (main_arg2 : FVec F S512x512 .f32) (main_arg3 : FVec F S512 .f32) (main_arg4 : FVec F S512x512 .f32) (main_arg5 : FVec F S512 .f32) (main_arg6 : FVec F S512x1 .f32) (main_arg7 : FVec F S1 .f32) (main_arg8 : FVec F S512x1 .f32) (main_arg9 : FVec F S1 .f32) : IVec S_ 1 :=
  let main_v0 : FVec F S25000x512 .f32 := Host.absf main_arg0
  let main_cst : FVec F S_ .f32 := constant S_ .f32 0x7F800000#32
  let main_v1 : FVec F S25000x512 .f32 := broadcastInDim S25000x512 ![] bcast_S_S25000x512 main_cst
  let main_v2 : IVec S25000x512 1 := cmpf .olt main_v0 main_v1
  let main_c : IVec S_ 1 := constantI S_ 1 1#1
  let main_v3 : IVec S_ 1 := (fun x v => Host.reduce IntOp.andi x v reducesTo_S25000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x200000 : Shape := ⟨2, ![1, 200000]⟩
abbrev S200000 : Shape := ⟨1, ![200000]⟩
abbrev S_ : Shape := ⟨0, ![]⟩
abbrev S25000 : Shape := ⟨1, ![25000]⟩
abbrev S200000x1 : Shape := ⟨2, ![200000, 1]⟩
abbrev S25000x1 : Shape := ⟨2, ![25000, 1]⟩
abbrev S1000x512 : Shape := ⟨2, ![1000, 512]⟩
abbrev S200000x512 : Shape := ⟨2, ![200000, 512]⟩
abbrev S1x512 : Shape := ⟨2, ![1, 512]⟩
abbrev S1000x1 : Shape := ⟨2, ![1000, 1]⟩
abbrev S512x2 : Shape := ⟨2, ![512, 2]⟩
abbrev S2 : Shape := ⟨1, ![2]⟩
abbrev S1x2 : Shape := ⟨2, ![1, 2]⟩
abbrev S25000x2 : Shape := ⟨2, ![25000, 2]⟩
abbrev S1000x2 : Shape := ⟨2, ![1000, 2]⟩

abbrev nBuf : Space → Nat
  | .hbm => 89
  | .vmem => 26
  | .smem => 0
  | _ => 0

abbrev bufTy : (tb : Table) → Fin (tcTables nBuf tb) → BufTy
  | .hbm, ⟨0, _⟩ => ⟨S25000x512, .f32⟩
  | .hbm, ⟨1, _⟩ => ⟨S2x200000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S1x200000, .i32⟩
  | .hbm, ⟨11, _⟩ => ⟨S200000, .i32⟩
  | .hbm, ⟨12, _⟩ => ⟨S1x200000, .i32⟩
  | .hbm, ⟨13, _⟩ => ⟨S200000, .i32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S25000, .f32⟩
  | .hbm, ⟨18, _⟩ => ⟨S200000x1, .i32⟩
  | .hbm, ⟨19, _⟩ => ⟨S25000, .f32⟩
  | .hbm, ⟨20, _⟩ => ⟨S_, .f32⟩
  | .hbm, ⟨21, _⟩ => ⟨S25000, .f32⟩
  | .hbm, ⟨22, _⟩ => ⟨S25000, .f32⟩
  | .hbm, ⟨23, _⟩ => ⟨S25000, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000, .f32⟩
  | .hbm, ⟨42, _⟩ => ⟨S200000, .f32⟩
  | .hbm, ⟨43, _⟩ => ⟨S25000, .f32⟩
  | .hbm, ⟨44, _⟩ => ⟨S25000x1, .f32⟩
  | .hbm, ⟨45, _⟩ => ⟨S25000x512, .f32⟩
  | .hbm, ⟨46, _⟩ => ⟨S_, .i32⟩
  | .hbm, ⟨47, _⟩ => ⟨S200000, .i32⟩
  | .hbm, ⟨48, _⟩ => ⟨S200000, .i1⟩
  | .hbm, ⟨49, _⟩ => ⟨S_, .i32⟩
  | .hbm, ⟨50, _⟩ => ⟨S200000, .i32⟩
  | .hbm, ⟨51, _⟩ => ⟨S200000, .i32⟩
  | .hbm, ⟨52, _⟩ => ⟨S200000, .i32⟩
  | .hbm, ⟨53, _⟩ => ⟨S200000x1, .i32⟩
  | .hbm, ⟨54, _⟩ => ⟨S200000x512, .f32⟩
  | .hbm, ⟨55, _⟩ => ⟨S200000x1, .f32⟩
  | .hbm, ⟨56, _⟩ => ⟨S200000x512, .f32⟩
  | .hbm, ⟨57, _⟩ => ⟨S200000x512, .f32⟩
  | .hbm, ⟨58, _⟩ => ⟨S_, .f32⟩
  | .hbm, ⟨59, _⟩ => ⟨S25000x512, .f32⟩
  | .hbm, ⟨60, _⟩ => ⟨S200000x1, .i32⟩
  | .hbm, ⟨61, _⟩ => ⟨S25000x512, .f32⟩
  | .hbm, ⟨62, _⟩ => ⟨S1x512, .f32⟩
  | .hbm, ⟨63, _⟩ => ⟨S25000x512, .f32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S200000x512, .f32⟩
  | .hbm, ⟨73, _⟩ => ⟨S200000x1, .f32⟩
  | .hbm, ⟨74, _⟩ => ⟨S200000x512, .f32⟩
  | .hbm, ⟨75, _⟩ => ⟨S200000x512, .f32⟩
  | .hbm, ⟨76, _⟩ => ⟨S_, .f32⟩
  | .hbm, ⟨77, _⟩ => ⟨S25000x512, .f32⟩
  | .hbm, ⟨78, _⟩ => ⟨S200000x1, .i32⟩
  | .hbm, ⟨79, _⟩ => ⟨S25000x512, .f32⟩
  | .hbm, ⟨80, _⟩ => ⟨S512x2, .f32⟩
  | .hbm, ⟨81, _⟩ => ⟨S2, .f32⟩
  | .hbm, ⟨82, _⟩ => ⟨S1x512, .f32⟩
  | .hbm, ⟨83, _⟩ => ⟨S1x2, .f32⟩
  | .hbm, ⟨84, _⟩ => ⟨S25000x2, .f32⟩
  | .hbm, ⟨85, _⟩ => ⟨S25000x1, .f32⟩
  | .hbm, ⟨86, _⟩ => ⟨S25000, .f32⟩
  | .hbm, ⟨87, _⟩ => ⟨S25000x1, .f32⟩
  | .hbm, ⟨88, _⟩ => ⟨S25000, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S1x512, .f32⟩
  | .local _ .vmem, ⟨12, _⟩ => ⟨S512x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x1, .f32⟩
  | .local _ .vmem, ⟨20, _⟩ => ⟨S1000x1, .f32⟩
  | .local _ .vmem, ⟨21, _⟩ => ⟨S1x512, .f32⟩
  | .local _ .vmem, ⟨22, _⟩ => ⟨S512x2, .f32⟩
  | .local _ .vmem, ⟨23, _⟩ => ⟨S1x2, .f32⟩
  | .local _ .vmem, ⟨24, _⟩ => ⟨S1000x2, .f32⟩
  | .local _ .vmem, ⟨25, _⟩ => ⟨S1000x2, .f32⟩
  | _, _ => ⟨S25000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S25000 : S_.BroadcastsInDim S25000 (![] : Fin 0 → Fin S25000.rank)
  bcast_S200000_S200000x1_0 : S200000.BroadcastsInDim S200000x1 (![0] : Fin 1 → Fin S200000x1.rank)
  shapeCasts_S25000_S25000x1 : S25000.ShapeCasts S25000x1
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S200000x1_S200000x512_0_1 : S200000x1.BroadcastsInDim S200000x512 (![0, 1] : Fin 2 → Fin S200000x512.rank)
  bcast_S_S25000x512 : S_.BroadcastsInDim S25000x512 (![] : Fin 0 → Fin S25000x512.rank)
  shapeCasts_S512_S1x512 : S512.ShapeCasts S1x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S1000x512_S1000x512 : S1000x512.ShapeCasts S1000x512
  concatenates_S512x1_S512x1_S512x2_d1 : Shape.Concatenates [S512x1, S512x1] S512x2 1
  concatenates_S1_S1_S2_d0 : Shape.Concatenates [S1, S1] S2 0
  shapeCasts_S2_S1x2 : S2.ShapeCasts S1x2
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  slices_S25000x2_S25000x1_0_0 : S25000x2.Slices ![0, 0] S25000x1
  shapeCasts_S25000x1_S25000 : S25000x1.ShapeCasts S25000
  slices_S25000x2_S25000x1_0_1 : S25000x2.Slices ![0, 1] S25000x1
  scatter_S25000_S200000x1_S200000_n_0_0_1_wf : ScatterDims.WF S25000 S200000x1 S200000 [] [0] [0] 1
  gather_S25000_S200000x1_S200000_n_0_n_n_0_1_1_wf : GatherDims.WF S25000 S200000x1 S200000 [] [0] [] [0] [] 1 ![1]
  dot_S1000x512_S512x512_S1000x512_1_0_0_1_n_n_wf : DotDims.WF S1000x512 S512x512 S1000x512 [1] [0] [0] [1] [] []
  gather_S25000x512_S200000x1_S200000x512_1_0_n_n_0_1_1512_wf : GatherDims.WF S25000x512 S200000x1 S200000x512 [1] [0] [] [0] [] 1 ![1, 512]
  scatter_S25000x512_S200000x1_S200000x512_1_0_0_1_wf : ScatterDims.WF S25000x512 S200000x1 S200000x512 [1] [0] [0] 1
  dot_S1000x512_S512x2_S1000x2_1_0_0_1_n_n_wf : DotDims.WF S1000x512 S512x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S25000x512.size a
  hwx0_2 : ∀ i : grid0.Coords, EltTy.bits .f32 = 32 ∨ (Rect.block (s := S25000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S25000x512.size a
  hwx1_0 : ∀ i : grid1.Coords, EltTy.bits .f32 = 32 ∨ (Rect.block (s := S25000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S25000x512.size a
  hwx1_1 : ∀ i : grid1.Coords, EltTy.bits .f32 = 32 ∨ (Rect.block (s := S25000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S25000x1.size a
  hwx1_2 : ∀ i : grid1.Coords, EltTy.bits .f32 = 32 ∨ (Rect.block (s := S25000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S25000x512.size a
  hwx1_5 : ∀ i : grid1.Coords, EltTy.bits .f32 = 32 ∨ (Rect.block (s := S25000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S25000x512.size a
  hwx2_0 : ∀ i : grid2.Coords, EltTy.bits .f32 = 32 ∨ (Rect.block (s := S25000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S25000x512.size a
  hwx2_1 : ∀ i : grid2.Coords, EltTy.bits .f32 = 32 ∨ (Rect.block (s := S25000x512) S1000x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S25000x1.size a
  hwx2_2 : ∀ i : grid2.Coords, EltTy.bits .f32 = 32 ∨ (Rect.block (s := S25000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x2.size a ≤ S512x2.size a
  hwx2_4 : ∀ i : grid2.Coords, EltTy.bits .f32 = 32 ∨ (Rect.block (s := S512x2) S512x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x2.size a ≤ S25000x2.size a
  hwx2_6 : ∀ i : grid2.Coords, EltTy.bits .f32 = 32 ∨ (Rect.block (s := S25000x2) S1000x2.size (cc2_transform_6 i) (hinb2_6 i)).WholeWords (EltTy.packing .f32)

variable [Facts₀]

def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def gather_S25000_S200000x1_S200000_n_0_n_n_0_1_1 : GatherDims S25000 S200000x1 S200000 where
  offsetDims := []
  collapsedSliceDims := [0]
  operandBatchingDims := []
  startIndicesBatchingDims := []
  startIndexMap := [0]
  indexVectorDim := 1
  sliceSizes := ![1]
  wf := gather_S25000_S200000x1_S200000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S25000x512_S200000x1_S200000x512_1_0_n_n_0_1_1512 : GatherDims S25000x512 S200000x1 S200000x512 where
  offsetDims := [1]
  collapsedSliceDims := [0]
  operandBatchingDims := []
  startIndicesBatchingDims := []
  startIndexMap := [0]
  indexVectorDim := 1
  sliceSizes := ![1, 512]
  wf := gather_S25000x512_S200000x1_S200000x512_1_0_n_n_0_1_1512_wf
def scatter_S25000x512_S200000x1_S200000x512_1_0_0_1 : ScatterDims S25000x512 S200000x1 S200000x512 where
  updateWindowDims := [1]
  insertedWindowDims := [0]
  scatterDimsToOperandDims := [0]
  indexVectorDim := 1
  wf := scatter_S25000x512_S200000x1_S200000x512_1_0_0_1_wf
def dot_S1000x512_S512x2_S1000x2_1_0_0_1_n_n : DotDims S1000x512 S512x2 S1000x2 where
  lhsContracting := [1]
  rhsContracting := [0]
  lhsNonContracting := [0]
  rhsNonContracting := [1]
  lhsBatch := []
  rhsBatch := []
  wf := dot_S1000x512_S512x2_S1000x2_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S512x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x200000 : Shape := ⟨2, ![1, 200000]⟩
abbrev S200000 : Shape := ⟨1, ![200000]⟩
abbrev S_ : Shape := ⟨0, ![]⟩
abbrev S25000 : Shape := ⟨1, ![25000]⟩
abbrev S200000x1 : Shape := ⟨2, ![200000, 1]⟩
abbrev S200000x512 : Shape := ⟨2, ![200000, 512]⟩
abbrev S25000x1 : Shape := ⟨2, ![25000, 1]⟩
abbrev S1x512 : Shape := ⟨2, ![1, 512]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S25000x512, .f32⟩
  | .hbm, ⟨1, _⟩ => ⟨S2x200000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S1x200000, .i32⟩
  | .hbm, ⟨11, _⟩ => ⟨S200000, .i32⟩
  | .hbm, ⟨12, _⟩ => ⟨S1x200000, .i32⟩
  | .hbm, ⟨13, _⟩ => ⟨S200000, .i32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S25000, .f32⟩
  | .hbm, ⟨18, _⟩ => ⟨S200000x1, .i32⟩
  | .hbm, ⟨19, _⟩ => ⟨S25000, .f32⟩
  | .hbm, ⟨20, _⟩ => ⟨S_, .f32⟩
  | .hbm, ⟨21, _⟩ => ⟨S25000, .f32⟩
  | .hbm, ⟨22, _⟩ => ⟨S25000, .f32⟩
  | .hbm, ⟨23, _⟩ => ⟨S25000, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000, .f32⟩
  | .hbm, ⟨42, _⟩ => ⟨S200000, .f32⟩
  | .hbm, ⟨43, _⟩ => ⟨S25000x512, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x512, .f32⟩
  | .hbm, ⟨53, _⟩ => ⟨S200000x1, .f32⟩
  | .hbm, ⟨54, _⟩ => ⟨S200000x512, .f32⟩
  | .hbm, ⟨55, _⟩ => ⟨S200000x512, .f32⟩
  | .hbm, ⟨56, _⟩ => ⟨S_, .f32⟩
  | .hbm, ⟨57, _⟩ => ⟨S25000x512, .f32⟩
  | .hbm, ⟨58, _⟩ => ⟨S200000x1, .i32⟩
  | .hbm, ⟨59, _⟩ => ⟨S25000x512, .f32⟩
  | .hbm, ⟨60, _⟩ => ⟨S25000, .f32⟩
  | .hbm, ⟨61, _⟩ => ⟨S25000x1, .f32⟩
  | .hbm, ⟨62, _⟩ => ⟨S25000x512, .f32⟩
  | .hbm, ⟨63, _⟩ => ⟨S25000x512, .f32⟩
  | .hbm, ⟨64, _⟩ => ⟨S25000x512, .f32⟩
  | .hbm, ⟨65, _⟩ => ⟨S1x512, .f32⟩
  | .hbm, ⟨66, _⟩ => ⟨S25000x512, .f32⟩
  | .hbm, ⟨67, _⟩ => ⟨S25000x512, .f32⟩
  | .hbm, ⟨68, _⟩ => ⟨S_, .f32⟩
  | .hbm, ⟨69, _⟩ => ⟨S25000x512, .f32⟩
  | .hbm, ⟨70, _⟩ => ⟨S25000x512, .f32⟩
  | .hbm, ⟨71, _⟩ => ⟨S25000x512, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x512, .f32⟩
  | .hbm, ⟨81, _⟩ => ⟨S200000x1, .f32⟩
  | .hbm, ⟨82, _⟩ => ⟨S200000x512, .f32⟩
  | .hbm, ⟨83, _⟩ => ⟨S200000x512, .f32⟩
  | .hbm, ⟨84, _⟩ => ⟨S_, .f32⟩
  | .hbm, ⟨85, _⟩ => ⟨S25000x512, .f32⟩
  | .hbm, ⟨86, _⟩ => ⟨S200000x1, .i32⟩
  | .hbm, ⟨87, _⟩ => ⟨S25000x512, .f32⟩
  | .hbm, ⟨88, _⟩ => ⟨S25000, .f32⟩
  | .hbm, ⟨89, _⟩ => ⟨S25000x1, .f32⟩
  | .hbm, ⟨90, _⟩ => ⟨S25000x512, .f32⟩
  | .hbm, ⟨91, _⟩ => ⟨S25000x512, .f32⟩
  | .hbm, ⟨92, _⟩ => ⟨S25000x512, .f32⟩
  | .hbm, ⟨93, _⟩ => ⟨S1x512, .f32⟩
  | .hbm, ⟨94, _⟩ => ⟨S25000x512, .f32⟩
  | .hbm, ⟨95, _⟩ => ⟨S25000x512, .f32⟩
  | .hbm, ⟨96, _⟩ => ⟨S_, .f32⟩
  | .hbm, ⟨97, _⟩ => ⟨S25000x512, .f32⟩
  | .hbm, ⟨98, _⟩ => ⟨S25000x512, .f32⟩
  | .hbm, ⟨99, _⟩ => ⟨S25000x1, .f32⟩
  | .hbm, ⟨100, _⟩ => ⟨S1x1, .f32⟩
  | .hbm, ⟨101, _⟩ => ⟨S25000x1, .f32⟩
  | .hbm, ⟨102, _⟩ => ⟨S25000x1, .f32⟩
  | .hbm, ⟨103, _⟩ => ⟨S25000, .f32⟩
  | .hbm, ⟨104, _⟩ => ⟨S25000x1, .f32⟩
  | .hbm, ⟨105, _⟩ => ⟨S1x1, .f32⟩
  | .hbm, ⟨106, _⟩ => ⟨S25000x1, .f32⟩
  | .hbm, ⟨107, _⟩ => ⟨S25000x1, .f32⟩
  | .hbm, ⟨108, _⟩ => ⟨S25000, .f32⟩
  | _, _ => ⟨S25000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S25000 : S_.BroadcastsInDim S25000 (![] : Fin 0 → Fin S25000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  shapeCasts_S25000x1_S25000 : S25000x1.ShapeCasts S25000
  scatter_S25000_S200000x1_S200000_n_0_0_1_wf : ScatterDims.WF S25000 S200000x1 S200000 [] [0] [0] 1
  gather_S25000_S200000x1_S200000_n_0_n_n_0_1_1_wf : GatherDims.WF S25000 S200000x1 S200000 [] [0] [] [0] [] 1 ![1]
  dot_S25000x512_S512x512_S25000x512_1_0_0_1_n_n_wf : DotDims.WF S25000x512 S512x512 S25000x512 [1] [0] [0] [1] [] []
  gather_S25000x512_S200000x1_S200000x512_1_0_n_n_0_1_1512_wf : GatherDims.WF S25000x512 S200000x1 S200000x512 [1] [0] [] [0] [] 1 ![1, 512]
  scatter_S25000x512_S200000x1_S200000x512_1_0_0_1_wf : ScatterDims.WF S25000x512 S200000x1 S200000x512 [1] [0] [0] 1
  dot_S25000x512_S512x1_S25000x1_1_0_0_1_n_n_wf : DotDims.WF S25000x512 S512x1 S25000x1 [1] [0] [0] [1] [] []

variable [Facts₀]

def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def gather_S25000_S200000x1_S200000_n_0_n_n_0_1_1 : GatherDims S25000 S200000x1 S200000 where
  offsetDims := []
  collapsedSliceDims := [0]
  operandBatchingDims := []
  startIndicesBatchingDims := []
  startIndexMap := [0]
  indexVectorDim := 1
  sliceSizes := ![1]
  wf := gather_S25000_S200000x1_S200000_n_0_n_n_0_1_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S25000x512_S200000x1_S200000x512_1_0_n_n_0_1_1512 : GatherDims S25000x512 S200000x1 S200000x512 where
  offsetDims := [1]
  collapsedSliceDims := [0]
  operandBatchingDims := []
  startIndicesBatchingDims := []
  startIndexMap := [0]
  indexVectorDim := 1
  sliceSizes := ![1, 512]
  wf := gather_S25000x512_S200000x1_S200000x512_1_0_n_n_0_1_1512_wf
def scatter_S25000x512_S200000x1_S200000x512_1_0_0_1 : ScatterDims S25000x512 S200000x1 S200000x512 where
  updateWindowDims := [1]
  insertedWindowDims := [0]
  scatterDimsToOperandDims := [0]
  indexVectorDim := 1
  wf := scatter_S25000x512_S200000x1_S200000x512_1_0_0_1_wf
def dot_S25000x512_S512x1_S25000x1_1_0_0_1_n_n : DotDims S25000x512 S512x1 S25000x1 where
  lhsContracting := [1]
  rhsContracting := [0]
  lhsNonContracting := [0]
  rhsNonContracting := [1]
  lhsBatch := []
  rhsBatch := []
  wf := dot_S25000x512_S512x1_S25000x1_1_0_0_1_n_n_wf

class Facts : Prop extends Facts₀ where

variable [Facts]
-- ==== Proof.KRun.lean ====
/-
  The idealized kernel's run with its two result arrays named.  @main is seven segments — a stretch of host
  operations, the first matrix product's region, the first aggregation, the fused combine-and-multiply region, the
  second aggregation, the fused combine-and-heads region, and the two column slices — and the contents of every
  unscoped buffer at each boundary are a fold through them.  Every weakly fair execution terminates with each result
  buffer holding the last fold's contents at that buffer, and the ten argument arrays as launched.
-/
import proofs.«159074_j11647951306787_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the final boundary's contents, the arguments unchanged.  The final thread state holds every
    unscoped buffer at the last fold; the two result buffers and the ten arguments are among them. -/
theorem run_named : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Named

end
-- ==== Proof.Region0.lean ====
/-
  The first region: one 1000-row block of `x` against the whole first weight matrix per grid point.

  Point `t` of the 25 stages rows `1000 t … 1000 t + 999` of the left array, the whole right array, and writes back rows
  `1000 t … 1000 t + 999` of the output.  The body's one store is the matrix unit's product into a zero accumulator;
  at the ideal values the roundings to bf16 on the way in are the identity, so entry `(p, q)` of the block is
  `∑ k, left (p, k) · right (k, q)`.  Entry `(i, j)` of the output array therefore ends at `∑ k, X (i, k) · W (k, j)`
  of the arrays `X`, `W` the region finds: each block is the restriction of that one function, and the 25 blocks cover
  all 25000 rows (row `i` lies in block `i / 1000`).
-/
import proofs.«159074_j11647951306787_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Rows times columns: entry `(i, j)` is `∑ k, X (i, k) · W (k, j)`. -/
def prod (X : S25000x512.Idx → EReal) (W : S512x512.Idx → EReal) : S25000x512.Idx → EReal :=
  fun i => ∑ k : Fin 512, X (ix2 (i 0) k) * W (ix2 k (i 1))

/-! ## The block's product at an entry -/

theorem lhs_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The matrix unit's product of a 1000×512 block and a 512×512 block into a zero accumulator, read at `y`. -/
theorem blockProd_apply (a : FVec Ideal S1000x512 .bf16) (b : FVec Ideal S512x512 .bf16) (y : S1000x512.Idx) :
    matmul dot_S1000x512_S512x512_S1000x512_1_0_0_1_n_n none a b (constant S1000x512 .f32 0x00000000#32) y
      = ∑ k : Fin 512, a (ix2 (y 0) k) * b (ix2 k (y 1)) := by
  refine (Ideal.matmul_constant_zero_apply dot_S1000x512_S512x512_S1000x512_1_0_0_1_n_n none a b y).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx y ((ValueIdx.contrEquiv1 dot_S1000x512_S512x512_S1000x512_1_0_0_1_n_n 512 rfl rfl).symm k) = ix2 (y 0) k := funext fun ax => Fin.ext (by
    match ax with
    | ⟨0, _⟩ => exact lhs_0 _ _
    | ⟨1, _⟩ => exact (lhs_1 _ _).trans hk)
  have er : dot_S1000x512_S512x512_S1000x512_1_0_0_1_n_n.rhsIdx y ((ValueIdx.contrEquiv1 dot_S1000x512_S512x512_S1000x512_1_0_0_1_n_n 512 rfl rfl).symm k) = ix2 k (y 1) := funext fun ax => Fin.ext (by
    match ax with
    | ⟨0, _⟩ => exact (rhs_0 _ _).trans hk
    | ⟨1, _⟩ => exact rhs_1 _ _)
  rw [el, er]
  rfl

/-- The body's payload at an entry: the roundings on the way into the matrix unit are the identity at the ideal values. -/
theorem pay_apply (x0 : Vec Ideal S1000x512 .f32) (x1 : Vec Ideal S512x512 .f32) (y : S1000x512.Idx) :
    k0_pay1 x0 x1 y = ∑ k : Fin 512, (x0 (ix2 (y 0) k) : EReal) * x1 (ix2 k (y 1)) := by
  unfold k0_pay1
  exact blockProd_apply _ _ y

/-! ## The windows' blocks, read where the output's block says -/

/-- The printed index maps over the grid: the row-blocked windows sit at block `(t, 0)`, the whole matrix at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t`, entry `y`, is the array's entry at row `1000 t + y₀`. -/
theorem left_apply (c : Dev nD) (t : Fin cfg0.N) (y : S1000x512.Idx) (k : S25000x512.Idx)
    (hk0 : (k 0).val = 1000 * t.val + (y 0).val) (hk1 : (k 1).val = (y 1).val) :
    (iblk0 V c 0 t : Vec Ideal S1000x512 .f32) y = (V c main_arg0 : S25000x512.Idx → Elt Ideal .f32) k := by
  obtain ⟨e0, e1, -, -, -, -⟩ := idx_facts t
  unfold iblk0
  rw [View.read_apply]
  show V c main_arg0 _ = V c main_arg0 _
  refine congrArg (V c main_arg0) (funext fun ax => Fin.ext ?_)
  match ax with
  | ⟨0, _⟩ => show win0_0.index t (0 : Fin 2) * 1000 + 1 * (y 0).val = (k 0).val; rw [e0, hk0]; omega
  | ⟨1, _⟩ => show win0_0.index t (1 : Fin 2) * 512 + 1 * (y 1).val = (k 1).val; rw [e1, hk1]; omega

/-- The right window's block is the whole matrix at every point. -/
theorem right_apply (c : Dev nD) (t : Fin cfg0.N) (y : S512x512.Idx) :
    (iblk0 V c 1 t : Vec Ideal S512x512 .f32) y = (V c main_arg2 : S512x512.Idx → Elt Ideal .f32) y := by
  obtain ⟨-, -, e0, e1, -, -⟩ := idx_facts t
  unfold iblk0
  rw [View.read_apply]
  show V c main_arg2 _ = V c main_arg2 _
  refine congrArg (V c main_arg2) (funext fun ax => Fin.ext ?_)
  match ax with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-! ## From blocks to the array -/

/-- What point `t` writes back is block `t` of the product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  obtain ⟨-, -, -, -, e0, e1⟩ := idx_facts t
  funext y
  show k0_pay1 (iblk0 V c 0 t) (iblk0 V c 1 t) y = prod (V c main_arg0) (V c main_arg2) (((cfg0.win 2).blk t).view.emb y)
  refine (pay_apply (iblk0 V c 0 t) (iblk0 V c 1 t) y).trans ?_
  unfold prod
  refine Finset.sum_congr rfl fun k _ => ?_
  refine congrArg₂ (fun (a b : EReal) => a * b) ?_ ?_
  · refine left_apply V c t (ix2 (y 0) k) _ ?_ rfl
    show win0_2.index t (0 : Fin 2) * 1000 + 1 * (y 0).val = 1000 * t.val + (y 0).val
    rw [e0]; omega
  · refine (right_apply V c t (ix2 k (y 1))).trans (congrArg (V c main_arg2) (funext fun ax => Fin.ext ?_))
    match ax with
    | ⟨0, _⟩ => rfl
    | ⟨1, _⟩ => show (y 1).val = win0_2.index t (1 : Fin 2) * 512 + 1 * (y 1).val; rw [e1]; omega

/-- An index of the output array is in point `t`'s block iff each coordinate is in the block's range on its axis. -/
theorem mem_blk (t : Fin cfg0.N) (i : S25000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v28).slice (win0_2.rect t)).set ↔ _
  rw [View.set_slice_whole, Rect.mem_set_unit]
  exact Iff.rfl

/-- Row `i` lies in block `i / 1000`. -/
theorem cover (i : S25000x512.Idx) : ∃ t : Fin cfg0.N, (cfg0.win 2).flush t = true ∧ i ∈ ((cfg0.win 2).blk t).view.set := by
  have hi0 : (i 0).val < 25000 := (i 0).isLt
  have hi1 : (i 1).val < 512 := (i 1).isLt
  have hN : cfg0.N = 25 := N_0
  let t : Fin cfg0.N := ⟨(i 0).val / 1000, by rw [hN]; omega⟩
  obtain ⟨-, -, -, -, e0, e1⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; rw [e0, ht]; omega
  | ⟨1, _⟩ => show win0_2.index t (1 : Fin 2) * 512 ≤ (i 1).val ∧ (i 1).val < win0_2.index t (1 : Fin 2) * 512 + 512; rw [e1]; omega

/-- The output array after the region: the product of the two arrays the region finds. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Layer0

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.Act.lean ====
/-
  The combine step both fused regions share.

  Each fused region first forms, entry by entry, `max ((a + h · d) + b, 0)`: the aggregated neighbour sum `a`, plus the
  node's own projected feature `h` weighted by its row's self-loop coefficient `d` (a column, one entry per row), plus the
  bias `b` (a row, one entry per column), rectified.  `act` is that function of the whole arrays, `actBlk` the same of one
  1000-row block; the body's vector expression, read at an entry, is `actBlk` there (the identity shape casts drop, the
  column and the row are read through their broadcasts, the rounding to bf16 is the identity at the ideal values).
-/
import proofs.«159074_j11647951306787_2_alg».proof.Proof.Region0
import proofs.«159074_j11647951306787_2_alg».proof.Proof.LibColumnLayouts
import Idealize.ShloMosaic.Lib.ValueLayout

set_option maxRecDepth 16384

noncomputable section

open Idealize.ShloMosaic Idealize.ShloMosaic.TcCoe Idealize.SL.Sem
open Idealize.ShloMosaic.ValueIdx

namespace Cert.KernelIdeal.Combine

open Cert.KernelIdeal Cert.KernelIdeal.Gen

/-- The rectified combination over the whole node set: entry `(i, k)` is `max ((A (i,k) + H (i,k) · D (i,0)) + B (0,k), 0)`. -/
def act (A H : S25000x512.Idx → EReal) (D : S25000x1.Idx → EReal) (B : S1x512.Idx → EReal) : S25000x512.Idx → EReal :=
  fun j => max ((A j + H j * D (ix2 (j 0) (0 : Fin 1))) + B (ix2 (0 : Fin 1) (j 1))) (Ideal.ofBits .f32 0x00000000#32)

/-- The same over one 1000-row block. -/
def actBlk (a h : S1000x512.Idx → EReal) (d : S1000x1.Idx → EReal) (b : S1x512.Idx → EReal) : S1000x512.Idx → EReal :=
  fun z => max ((a z + h z * d (ix2 (z 0) (0 : Fin 1))) + b (ix2 (0 : Fin 1) (z 1))) (Ideal.ofBits .f32 0x00000000#32)

/-- The body's vector expression for the combination, read at entry `(p, k)` of the block. -/
theorem combine_apply (d : Vec Ideal S1000x1 .f32) (b : Vec Ideal S1x512 .f32) (a h : Vec Ideal S1000x512 .f32)
    (p : Fin 1000) (k : Fin 512) :
    (truncf .bf16 (maximumf (addf (addf a (mulf h (broadcastTo S1000x512 d broadcasts_S1000x1_S1000x512)))
        (broadcastTo S1000x512 b broadcasts_S1x512_S1000x512)) (broadcast S1000x512 (Scalar.ofBits (F := Ideal) .f32 0x00000000#32)))
      bitsLt_bf16_f32 : FVec Ideal S1000x512 .bf16) (ix2 p k) = actBlk a h d b (ix2 p k) := by
  unfold actBlk
  show max ((a (ix2 p k) + h (ix2 p k) * broadcastTo S1000x512 d broadcasts_S1000x1_S1000x512 (ix2 p k))
      + broadcastTo S1000x512 b broadcasts_S1x512_S1000x512 (ix2 p k)) (Ideal.ofBits .f32 0x00000000#32) = _
  rw [Cert.ColumnLayouts.broadcastTo_a1_ab_apply d broadcasts_S1000x1_S1000x512 p k,
    broadcastTo_1b_ab_apply b broadcasts_S1x512_S1000x512 p k]

end Cert.KernelIdeal.Combine

end
-- ==== Proof.Region1.lean ====
/-
  The second region: combine the first layer and multiply by the second weight matrix, 1000 rows per grid point.

  Point `t` stages rows `1000 t … 1000 t + 999` of the aggregated sums, of the first layer's projected features and of the
  self-loop column, the whole bias row and the whole weight matrix, and writes back the same rows of the output.  The
  body forms the rectified combination of its block and multiplies it by the weights on the matrix unit (zero
  accumulator; the roundings to bf16 are the identity at the ideal values).  So the output array ends at the product
  of the rectified combination of the WHOLE arrays with the weights: each block is the restriction of that one
  function, and the 25 blocks cover the rows.
-/
import proofs.«159074_j11647951306787_2_alg».proof.Proof.Act

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen Cert.KernelIdeal.Combine

variable (V : (c : Dev nD) → (b : Ref sig .tc) → Buf (Elt Ideal) ((c : Thread nD τ).loc b))

/-- The body's payload at an entry: the block's rectified combination times the weights. -/
theorem pay_apply (d : Vec Ideal S1000x1 .f32) (b : Vec Ideal S1x512 .f32) (a h : Vec Ideal S1000x512 .f32)
    (w : Vec Ideal S512x512 .f32) (y : S1000x512.Idx) :
    k1_pay1 d b a h w y = ∑ k : Fin 512, actBlk a h d b (ix2 (y 0) k) * (w (ix2 k (y 1)) : EReal) := by
  unfold k1_pay1
  simp only [shapeCast_self]
  refine (Layer0.blockProd_apply _ _ y).trans ?_
  refine Finset.sum_congr rfl fun k _ => ?_
  refine congrArg₂ (fun (p q : EReal) => p * q) ?_ rfl
  exact combine_apply d b a h (y 0) k

/-- The printed index maps over the grid: the row-blocked windows sit at block `(t, 0)`, the whole ones at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated sums' block at point `t`, entry `y`, is the array's entry at row `1000 t + y₀`. -/
theorem agg_apply (c : Dev nD) (t : Fin cfg1.N) (y : S1000x512.Idx) (k : S25000x512.Idx)
    (hk0 : (k 0).val = 1000 * t.val + (y 0).val) (hk1 : (k 1).val = (y 1).val) :
    (iblk1 V c 0 t : Vec Ideal S1000x512 .f32) y = (V c main_v41 : S25000x512.Idx → Elt Ideal .f32) k := by
  obtain ⟨e0, e1, -⟩ := idx_facts t
  unfold iblk1
  rw [View.read_apply]
  show V c main_v41 _ = V c main_v41 _
  refine congrArg (V c main_v41) (funext fun ax => Fin.ext ?_)
  match ax with
  | ⟨0, _⟩ => show win1_0.index t (0 : Fin 2) * 1000 + 1 * (y 0).val = (k 0).val; rw [e0, hk0]; omega
  | ⟨1, _⟩ => show win1_0.index t (1 : Fin 2) * 512 + 1 * (y 1).val = (k 1).val; rw [e1, hk1]; omega

/-- The projected features' block likewise. -/
theorem feat_apply (c : Dev nD) (t : Fin cfg1.N) (y : S1000x512.Idx) (k : S25000x512.Idx)
    (hk0 : (k 0).val = 1000 * t.val + (y 0).val) (hk1 : (k 1).val = (y 1).val) :
    (iblk1 V c 1 t : Vec Ideal S1000x512 .f32) y = (V c main_v28 : S25000x512.Idx → Elt Ideal .f32) k := by
  obtain ⟨-, -, e0, e1, -⟩ := idx_facts t
  unfold iblk1
  rw [View.read_apply]
  show V c main_v28 _ = V c main_v28 _
  refine congrArg (V c main_v28) (funext fun ax => Fin.ext ?_)
  match ax with
  | ⟨0, _⟩ => show win1_1.index t (0 : Fin 2) * 1000 + 1 * (y 0).val = (k 0).val; rw [e0, hk0]; omega
  | ⟨1, _⟩ => show win1_1.index t (1 : Fin 2) * 512 + 1 * (y 1).val = (k 1).val; rw [e1, hk1]; omega

/-- The self-loop column's block: rows `1000 t …` of the column. -/
theorem col_apply (c : Dev nD) (t : Fin cfg1.N) (y : S1000x1.Idx) (k : S25000x1.Idx)
    (hk0 : (k 0).val = 1000 * t.val + (y 0).val) (hk1 : (k 1).val = (y 1).val) :
    (iblk1 V c 2 t : Vec Ideal S1000x1 .f32) y = (V c main_v27 : S25000x1.Idx → Elt Ideal .f32) k := by
  obtain ⟨-, -, -, -, e0, e1, -⟩ := idx_facts t
  unfold iblk1
  rw [View.read_apply]
  show V c main_v27 _ = V c main_v27 _
  refine congrArg (V c main_v27) (funext fun ax => Fin.ext ?_)
  match ax with
  | ⟨0, _⟩ => show win1_2.index t (0 : Fin 2) * 1000 + 1 * (y 0).val = (k 0).val; rw [e0, hk0]; omega
  | ⟨1, _⟩ => show win1_2.index t (1 : Fin 2) * 1 + 1 * (y 1).val = (k 1).val; rw [e1, hk1]; omega

/-- The bias row's block is the whole row at every point. -/
theorem bias_apply (c : Dev nD) (t : Fin cfg1.N) (y : S1x512.Idx) :
    (iblk1 V c 3 t : Vec Ideal S1x512 .f32) y = (V c main_v42 : S1x512.Idx → Elt Ideal .f32) y := by
  obtain ⟨-, -, -, -, -, -, e0, e1, -⟩ := idx_facts t
  unfold iblk1
  rw [View.read_apply]
  show V c main_v42 _ = V c main_v42 _
  refine congrArg (V c main_v42) (funext fun ax => Fin.ext ?_)
  match ax with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- The weights' block is the whole matrix at every point. -/
theorem weight_apply (c : Dev nD) (t : Fin cfg1.N) (y : S512x512.Idx) :
    (iblk1 V c 4 t : Vec Ideal S512x512 .f32) y = (V c main_arg4 : S512x512.Idx → Elt Ideal .f32) y := by
  obtain ⟨-, -, -, -, -, -, -, -, e0, e1, -⟩ := idx_facts t
  unfold iblk1
  rw [View.read_apply]
  show V c main_arg4 _ = V c main_arg4 _
  refine congrArg (V c main_arg4) (funext fun ax => Fin.ext ?_)
  match ax with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

/-- The block's rectified combination at `(p, k)` is the whole arrays' at row `1000 t + p`. -/
theorem actBlk_eq (c : Dev nD) (t : Fin cfg1.N) (p : Fin 1000) (k : Fin 512) (r : Fin 25000) (hr : r.val = 1000 * t.val + p.val) :
    actBlk (iblk1 V c 0 t) (iblk1 V c 1 t) (iblk1 V c 2 t) (iblk1 V c 3 t) (ix2 p k)
      = act (V c main_v41) (V c main_v28) (V c main_v27) (V c main_v42) (ix2 r k) := by
  unfold actBlk act
  refine congrArg₂ (fun (u v : EReal) => max u v) (congrArg₂ (fun (u v : EReal) => u + v)
    (congrArg₂ (fun (u v : EReal) => u + v) ?_ (congrArg₂ (fun (u v : EReal) => u * v) ?_ ?_)) ?_) rfl
  · exact agg_apply V c t (ix2 p k) (ix2 r k) hr rfl
  · exact feat_apply V c t (ix2 p k) (ix2 r k) hr rfl
  · exact col_apply V c t (ix2 p (0 : Fin 1)) (ix2 r (0 : Fin 1)) hr rfl
  · exact bias_apply V c t (ix2 (0 : Fin 1) k)

/-- The output of the region as one function of the arrays it finds. -/
def out (A H : S25000x512.Idx → EReal) (D : S25000x1.Idx → EReal) (B : S1x512.Idx → EReal) (W : S512x512.Idx → EReal) :
    S25000x512.Idx → EReal :=
  Layer0.prod (act A H D B) W

/-- What point `t` writes back is block `t` of `out` of the arrays the region finds. -/
theorem flushed_eq (c : Dev nD) (t : Fin cfg1.N) :
    (dat1 V c).flushed 5 t = ((cfg1.win 5).blk t).view.read (Elt Ideal)
      (out (V c main_v41) (V c main_v28) (V c main_v27) (V c main_v42) (V c main_arg4)) := by
  show (cfg1.win 5).cut (grid1.coords t) ((dat1 V c).after 5 t) = _
  rw [after1_5]
  unfold out1_5
  rw [View.canon_unit_zero Layer0.hz]
  simp only [View.ld_unit_zero (S := S1000x512) Layer0.hz, View.ld_unit_zero (S := S512x512) Layer0.hz,
    View.ld_unit_zero (S := S1000x1) Layer0.hz, View.ld_unit_zero (S := S1x512) Layer0.hz]
  obtain ⟨-, -, -, -, -, -, -, -, -, -, e0, e1⟩ := idx_facts t
  funext y
  show k1_pay1 (iblk1 V c 2 t) (iblk1 V c 3 t) (iblk1 V c 0 t) (iblk1 V c 1 t) (iblk1 V c 4 t) y
    = out (V c main_v41) (V c main_v28) (V c main_v27) (V c main_v42) (V c main_arg4) (((cfg1.win 5).blk t).view.emb y)
  refine (pay_apply (iblk1 V c 2 t) (iblk1 V c 3 t) (iblk1 V c 0 t) (iblk1 V c 1 t) (iblk1 V c 4 t) y).trans ?_
  unfold out Layer0.prod
  refine Finset.sum_congr rfl fun k _ => ?_
  refine congrArg₂ (fun (a b : EReal) => a * b) ?_ ?_
  · refine actBlk_eq V c t (y 0) k _ ?_
    show win1_5.index t (0 : Fin 2) * 1000 + 1 * (y 0).val = 1000 * t.val + (y 0).val
    rw [e0]; omega
  · refine (weight_apply V c t (ix2 k (y 1))).trans (congrArg (V c main_arg4) (funext fun ax => Fin.ext ?_))
    match ax with
    | ⟨0, _⟩ => rfl
    | ⟨1, _⟩ => show (y 1).val = win1_5.index t (1 : Fin 2) * 512 + 1 * (y 1).val; rw [e1]; omega

/-- An index of the output array is in point `t`'s block iff each coordinate is in the block's range on its axis. -/
theorem mem_blk (t : Fin cfg1.N) (i : S25000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v43).slice (win1_5.rect t)).set ↔ _
  rw [View.set_slice_whole, Rect.mem_set_unit]
  exact Iff.rfl

/-- Row `i` lies in block `i / 1000`. -/
theorem cover (i : S25000x512.Idx) : ∃ t : Fin cfg1.N, (cfg1.win 5).flush t = true ∧ i ∈ ((cfg1.win 5).blk t).view.set := by
  have hi0 : (i 0).val < 25000 := (i 0).isLt
  have hi1 : (i 1).val < 512 := (i 1).isLt
  have hN : cfg1.N = 25 := N_1
  let t : Fin cfg1.N := ⟨(i 0).val / 1000, by rw [hN]; omega⟩
  obtain ⟨-, -, -, -, -, -, -, -, -, -, e0, e1⟩ := idx_facts t
  have ht : t.val = (i 0).val / 1000 := rfl
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; rw [e0, ht]; omega
  | ⟨1, _⟩ => show win1_5.index t (1 : Fin 2) * 512 ≤ (i 1).val ∧ (i 1).val < win1_5.index t (1 : Fin 2) * 512 + 512; rw [e1]; omega

/-- The output array after the region. -/
theorem final (c : Dev nD) : (dat1 V c).arrAt 5 cfg1.N
    = out (V c main_v41) (V c main_v28) (V c main_v27) (V c main_v42) (V c main_arg4) :=
  (dat1 V c).arrAt_eq_of_cover 5 _ (fun t _ => flushed_eq V c t) cover

end Cert.KernelIdeal.Layer1

end
-- ==== Proof.Region2.lean ====
/-
  The third region: combine the second layer and apply the two heads at once, 1000 rows per grid point.

  Point `t` stages rows `1000 t … 1000 t + 999` of the second aggregation, of the second layer's projected features and of
  the self-loop column, the whole bias row, the whole 512×2 head matrix (the two head columns side by side) and the
  1×2 row of head biases, and writes back the same rows of the 25000×2 output.  The body forms the rectified combination
  of its block, multiplies it by the head matrix on the matrix unit (zero accumulator) and adds the head biases along
  each row.  So the output array ends at `(i, j) ↦ ∑ k, act (i, k) · Wov (k, j) + bov (0, j)` of the WHOLE arrays.
-/
import proofs.«159074_j11647951306787_2_alg».proof.Proof.Act

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen Cert.KernelIdeal.Combine

variable (V : (c : Dev nD) → (b : Ref sig .tc) → Buf (Elt Ideal) ((c : Thread nD τ).loc b))

/-! ## The block's product with the head matrix at an entry -/

theorem lhs_0 (i : S1000x2.Idx) (q : dot_S1000x512_S512x2_S1000x2_1_0_0_1_n_n.contr.Idx) :
    (dot_S1000x512_S512x2_S1000x2_1_0_0_1_n_n.lhsIdx i q 0).val = (i 0).val := by
  unfold DotDims.lhsIdx
  rw [dif_neg (show ¬(0 : Fin S1000x512.rank) ∈ dot_S1000x512_S512x2_S1000x2_1_0_0_1_n_n.lhsBatch by decide), dif_pos (show (0 : Fin S1000x512.rank) ∈ dot_S1000x512_S512x2_S1000x2_1_0_0_1_n_n.lhsNonContracting by decide)]
  rfl
theorem lhs_1 (i : S1000x2.Idx) (q : dot_S1000x512_S512x2_S1000x2_1_0_0_1_n_n.contr.Idx) :
    (dot_S1000x512_S512x2_S1000x2_1_0_0_1_n_n.lhsIdx i q 1).val = (q ⟨0, by decide⟩).val :=
  dot_S1000x512_S512x2_S1000x2_1_0_0_1_n_n.lhsIdx_val_of_single rfl i q
theorem rhs_0 (i : S1000x2.Idx) (q : dot_S1000x512_S512x2_S1000x2_1_0_0_1_n_n.contr.Idx) :
    (dot_S1000x512_S512x2_S1000x2_1_0_0_1_n_n.rhsIdx i q 0).val = (q ⟨0, by decide⟩).val :=
  dot_S1000x512_S512x2_S1000x2_1_0_0_1_n_n.rhsIdx_val_of_single rfl i q
theorem rhs_1 (i : S1000x2.Idx) (q : dot_S1000x512_S512x2_S1000x2_1_0_0_1_n_n.contr.Idx) :
    (dot_S1000x512_S512x2_S1000x2_1_0_0_1_n_n.rhsIdx i q 1).val = (i 1).val := by
  unfold DotDims.rhsIdx
  rw [dif_neg (show ¬(1 : Fin S512x2.rank) ∈ dot_S1000x512_S512x2_S1000x2_1_0_0_1_n_n.rhsBatch by decide), dif_pos (show (1 : Fin S512x2.rank) ∈ dot_S1000x512_S512x2_S1000x2_1_0_0_1_n_n.rhsNonContracting by decide)]
  rfl

/-- The matrix unit's product of a 1000×512 block and the 512×2 head matrix into a zero accumulator, read at `y`. -/
theorem headProd_apply (a : FVec Ideal S1000x512 .bf16) (b : FVec Ideal S512x2 .bf16) (y : S1000x2.Idx) :
    matmul dot_S1000x512_S512x2_S1000x2_1_0_0_1_n_n none a b (constant S1000x2 .f32 0x00000000#32) y
      = ∑ k : Fin 512, a (ix2 (y 0) k) * b (ix2 k (y 1)) := by
  refine (Ideal.matmul_constant_zero_apply dot_S1000x512_S512x2_S1000x2_1_0_0_1_n_n none a b y).trans ?_
  rw [← Equiv.sum_comp (ValueIdx.contrEquiv1 dot_S1000x512_S512x2_S1000x2_1_0_0_1_n_n 512 rfl rfl).symm]
  refine Finset.sum_congr rfl fun k _ => ?_
  have hk := ValueIdx.contrEquiv1_symm_val dot_S1000x512_S512x2_S1000x2_1_0_0_1_n_n 512 rfl rfl k
  have el : dot_S1000x512_S512x2_S1000x2_1_0_0_1_n_n.lhsIdx y ((ValueIdx.contrEquiv1 dot_S1000x512_S512x2_S1000x2_1_0_0_1_n_n 512 rfl rfl).symm k) = ix2 (y 0) k := funext fun ax => Fin.ext (by
    match ax with
    | ⟨0, _⟩ => exact lhs_0 _ _
    | ⟨1, _⟩ => exact (lhs_1 _ _).trans hk)
  have er : dot_S1000x512_S512x2_S1000x2_1_0_0_1_n_n.rhsIdx y ((ValueIdx.contrEquiv1 dot_S1000x512_S512x2_S1000x2_1_0_0_1_n_n 512 rfl rfl).symm k) = ix2 k (y 1) := funext fun ax => Fin.ext (by
    match ax with
    | ⟨0, _⟩ => exact (rhs_0 _ _).trans hk
    | ⟨1, _⟩ => exact rhs_1 _ _)
  rw [el, er]
  rfl

/-- The body's payload at an entry: the block's rectified combination times the head matrix, plus the head bias of the column. -/
theorem pay_apply (d : Vec Ideal S1000x1 .f32) (b : Vec Ideal S1x512 .f32) (a h : Vec Ideal S1000x512 .f32)
    (w : Vec Ideal S512x2 .f32) (bo : Vec Ideal S1x2 .f32) (p : Fin 1000) (q : Fin 2) :
    k2_pay1 d b a h w bo (ix2 p q)
      = (∑ k : Fin 512, actBlk a h d b (ix2 p k) * (w (ix2 k q) : EReal)) + (bo (ix2 (0 : Fin 1) q) : EReal) := by
  unfold k2_pay1
  simp only [shapeCast_self]
  show (matmul (F := Ideal) dot_S1000x512_S512x2_S1000x2_1_0_0_1_n_n none _ _ (constant S1000x2 .f32 0x00000000#32) : FVec Ideal S1000x2 .f32) (ix2 p q)
    + (broadcastTo S1000x2 bo broadcasts_S1x2_S1000x2 : FVec Ideal S1000x2 .f32) (ix2 p q) = _
  rw [broadcastTo_1b_ab_apply bo broadcasts_S1x2_S1000x2 p q]
  refine congrArg₂ (fun (u v : EReal) => u + v) ?_ rfl
  refine (headProd_apply _ _ (ix2 p q)).trans ?_
  refine Finset.sum_congr rfl fun k _ => ?_
  refine congrArg₂ (fun (u v : EReal) => u * v) ?_ rfl
  exact combine_apply d b a h p k

/-- The printed index maps over the grid: the row-blocked windows sit at block `(t, 0)`, the whole ones at `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregated sums' block at point `t`, entry `y`, is the array's entry at row `1000 t + y₀`. -/
theorem agg_apply (c : Dev nD) (t : Fin cfg2.N) (y : S1000x512.Idx) (k : S25000x512.Idx)
    (hk0 : (k 0).val = 1000 * t.val + (y 0).val) (hk1 : (k 1).val = (y 1).val) :
    (iblk2 V c 0 t : Vec Ideal S1000x512 .f32) y = (V c main_v56 : S25000x512.Idx → Elt Ideal .f32) k := by
  obtain ⟨e0, e1, -⟩ := idx_facts t
  unfold iblk2
  rw [View.read_apply]
  show V c main_v56 _ = V c main_v56 _
  refine congrArg (V c main_v56) (funext fun ax => Fin.ext ?_)
  match ax with
  | ⟨0, _⟩ => show win2_0.index t (0 : Fin 2) * 1000 + 1 * (y 0).val = (k 0).val; rw [e0, hk0]; omega
  | ⟨1, _⟩ => show win2_0.index t (1 : Fin 2) * 512 + 1 * (y 1).val = (k 1).val; rw [e1, hk1]; omega

/-- The projected features' block likewise. -/
theorem feat_apply (c : Dev nD) (t : Fin cfg2.N) (y : S1000x512.Idx) (k : S25000x512.Idx)
    (hk0 : (k 0).val = 1000 * t.val + (y 0).val) (hk1 : (k 1).val = (y 1).val) :
    (iblk2 V c 1 t : Vec Ideal S1000x512 .f32) y = (V c main_v43 : S25000x512.Idx → Elt Ideal .f32) k := by
  obtain ⟨-, -, e0, e1, -⟩ := idx_facts t
  unfold iblk2
  rw [View.read_apply]
  show V c main_v43 _ = V c main_v43 _
  refine congrArg (V c main_v43) (funext fun ax => Fin.ext ?_)
  match ax with
  | ⟨0, _⟩ => show win2_1.index t (0 : Fin 2) * 1000 + 1 * (y 0).val = (k 0).val; rw [e0, hk0]; omega
  | ⟨1, _⟩ => show win2_1.index t (1 : Fin 2) * 512 + 1 * (y 1).val = (k 1).val; rw [e1, hk1]; omega

/-- The self-loop column's block: rows `1000 t …` of the column. -/
theorem col_apply (c : Dev nD) (t : Fin cfg2.N) (y : S1000x1.Idx) (k : S25000x1.Idx)
    (hk0 : (k 0).val = 1000 * t.val + (y 0).val) (hk1 : (k 1).val = (y 1).val) :
    (iblk2 V c 2 t : Vec Ideal S1000x1 .f32) y = (V c main_v27 : S25000x1.Idx → Elt Ideal .f32) k := by
  obtain ⟨-, -, -, -, e0, e1, -⟩ := idx_facts t
  unfold iblk2
  rw [View.read_apply]
  show V c main_v27 _ = V c main_v27 _
  refine congrArg (V c main_v27) (funext fun ax => Fin.ext ?_)
  match ax with
  | ⟨0, _⟩ => show win2_2.index t (0 : Fin 2) * 1000 + 1 * (y 0).val = (k 0).val; rw [e0, hk0]; omega
  | ⟨1, _⟩ => show win2_2.index t (1 : Fin 2) * 1 + 1 * (y 1).val = (k 1).val; rw [e1, hk1]; omega

/-- The bias row's block is the whole row at every point. -/
theorem bias_apply (c : Dev nD) (t : Fin cfg2.N) (y : S1x512.Idx) :
    (iblk2 V c 3 t : Vec Ideal S1x512 .f32) y = (V c main_v59 : S1x512.Idx → Elt Ideal .f32) y := by
  obtain ⟨-, -, -, -, -, -, e0, e1, -⟩ := idx_facts t
  unfold iblk2
  rw [View.read_apply]
  show V c main_v59 _ = V c main_v59 _
  refine congrArg (V c main_v59) (funext fun ax => Fin.ext ?_)
  match ax with
  | ⟨0, _⟩ => show win2_3.index t (0 : Fin 2) * 1 + 1 * (y 0).val = (y 0).val; rw [e0]; omega
  | ⟨1, _⟩ => show win2_3.index t (1 : Fin 2) * 512 + 1 * (y 1).val = (y 1).val; rw [e1]; omega

/-- The head matrix's block is the whole matrix at every point. -/
theorem weight_apply (c : Dev nD) (t : Fin cfg2.N) (y : S512x2.Idx) :
    (iblk2 V c 4 t : Vec Ideal S512x2 .f32) y = (V c main_v57 : S512x2.Idx → Elt Ideal .f32) y := by
  obtain ⟨-, -, -, -, -, -, -, -, e0, e1, -⟩ := idx_facts t
  unfold iblk2
  rw [View.read_apply]
  show V c main_v57 _ = V c main_v57 _
  refine congrArg (V c main_v57) (funext fun ax => Fin.ext ?_)
  match ax with
  | ⟨0, _⟩ => show win2_4.index t (0 : Fin 2) * 512 + 1 * (y 0).val = (y 0).val; rw [e0]; omega
  | ⟨1, _⟩ => show win2_4.index t (1 : Fin 2) * 2 + 1 * (y 1).val = (y 1).val; rw [e1]; omega

/-- The head biases' block is the whole 1×2 row at every point. -/
theorem hbias_apply (c : Dev nD) (t : Fin cfg2.N) (y : S1x2.Idx) :
    (iblk2 V c 5 t : Vec Ideal S1x2 .f32) y = (V c main_v60 : S1x2.Idx → Elt Ideal .f32) y := by
  obtain ⟨-, -, -, -, -, -, -, -, -, -, e0, e1, -⟩ := idx_facts t
  unfold iblk2
  rw [View.read_apply]
  show V c main_v60 _ = V c main_v60 _
  refine congrArg (V c main_v60) (funext fun ax => Fin.ext ?_)
  match ax with
  | ⟨0, _⟩ => show win2_5.index t (0 : Fin 2) * 1 + 1 * (y 0).val = (y 0).val; rw [e0]; omega
  | ⟨1, _⟩ => show win2_5.index t (1 : Fin 2) * 2 + 1 * (y 1).val = (y 1).val; rw [e1]; omega

/-- The block's rectified combination at `(p, k)` is the whole arrays' at row `1000 t + p`. -/
theorem actBlk_eq (c : Dev nD) (t : Fin cfg2.N) (p : Fin 1000) (k : Fin 512) (r : Fin 25000) (hr : r.val = 1000 * t.val + p.val) :
    actBlk (iblk2 V c 0 t) (iblk2 V c 1 t) (iblk2 V c 2 t) (iblk2 V c 3 t) (ix2 p k)
      = act (V c main_v56) (V c main_v43) (V c main_v27) (V c main_v59) (ix2 r k) := by
  unfold actBlk act
  refine congrArg₂ (fun (u v : EReal) => max u v) (congrArg₂ (fun (u v : EReal) => u + v)
    (congrArg₂ (fun (u v : EReal) => u + v) ?_ (congrArg₂ (fun (u v : EReal) => u * v) ?_ ?_)) ?_) rfl
  · exact agg_apply V c t (ix2 p k) (ix2 r k) hr rfl
  · exact feat_apply V c t (ix2 p k) (ix2 r k) hr rfl
  · exact col_apply V c t (ix2 p (0 : Fin 1)) (ix2 r (0 : Fin 1)) hr rfl
  · exact bias_apply V c t (ix2 (0 : Fin 1) k)

/-- The output of the region as one function of the arrays it finds: both heads' logits, one per column. -/
def out (A H : S25000x512.Idx → EReal) (D : S25000x1.Idx → EReal) (B : S1x512.Idx → EReal) (W : S512x2.Idx → EReal)
    (Bo : S1x2.Idx → EReal) : S25000x2.Idx → EReal :=
  fun i => (∑ k : Fin 512, act A H D B (ix2 (i 0) k) * W (ix2 k (i 1))) + Bo (ix2 (0 : Fin 1) (i 1))

/-- What point `t` writes back is block `t` of `out` of the arrays the region finds. -/
theorem flushed_eq (c : Dev nD) (t : Fin cfg2.N) :
    (dat2 V c).flushed 6 t = ((cfg2.win 6).blk t).view.read (Elt Ideal)
      (out (V c main_v56) (V c main_v43) (V c main_v27) (V c main_v59) (V c main_v57) (V c main_v60)) := by
  show (cfg2.win 6).cut (grid2.coords t) ((dat2 V c).after 6 t) = _
  rw [after2_6]
  unfold out2_6
  rw [View.canon_unit_zero Layer0.hz]
  simp only [View.ld_unit_zero (S := S1000x512) Layer0.hz, View.ld_unit_zero (S := S512x2) Layer0.hz,
    View.ld_unit_zero (S := S1000x1) Layer0.hz, View.ld_unit_zero (S := S1x512) Layer0.hz, View.ld_unit_zero (S := S1x2) Layer0.hz]
  obtain ⟨-, -, -, -, -, -, -, -, -, -, -, -, e0, e1⟩ := idx_facts t
  funext y
  obtain ⟨p, q, rfl⟩ : ∃ (p : Fin 1000) (q : Fin 2), y = ix2 p q := ⟨y 0, y 1, eq_ix2 y⟩
  show k2_pay1 (iblk2 V c 2 t) (iblk2 V c 3 t) (iblk2 V c 0 t) (iblk2 V c 1 t) (iblk2 V c 4 t) (iblk2 V c 5 t) (ix2 p q)
    = out (V c main_v56) (V c main_v43) (V c main_v27) (V c main_v59) (V c main_v57) (V c main_v60) (((cfg2.win 6).blk t).view.emb (ix2 p q))
  refine (pay_apply (iblk2 V c 2 t) (iblk2 V c 3 t) (iblk2 V c 0 t) (iblk2 V c 1 t) (iblk2 V c 4 t) (iblk2 V c 5 t) p q).trans ?_
  unfold out
  refine congrArg₂ (fun (u v : EReal) => u + v) (Finset.sum_congr rfl fun k _ => congrArg₂ (fun (a b : EReal) => a * b) ?_ ?_) ?_
  · refine actBlk_eq V c t p k _ ?_
    show win2_6.index t (0 : Fin 2) * 1000 + 1 * p.val = 1000 * t.val + p.val
    rw [e0]; omega
  · refine (weight_apply V c t (ix2 k q)).trans (congrArg (V c main_v57) (funext fun ax => Fin.ext ?_))
    match ax with
    | ⟨0, _⟩ => rfl
    | ⟨1, _⟩ => show q.val = win2_6.index t (1 : Fin 2) * 2 + 1 * q.val; rw [e1]; omega
  · refine (hbias_apply V c t (ix2 (0 : Fin 1) q)).trans (congrArg (V c main_v60) (funext fun ax => Fin.ext ?_))
    match ax with
    | ⟨0, _⟩ => rfl
    | ⟨1, _⟩ => show q.val = win2_6.index t (1 : Fin 2) * 2 + 1 * q.val; rw [e1]; omega

/-- An index of the output array is in point `t`'s block iff each coordinate is in the block's range on its axis. -/
theorem mem_blk (t : Fin cfg2.N) (i : S25000x2.Idx) :
    i ∈ ((cfg2.win 6).blk t).view.set ↔ ∀ a : Fin 2, win2_6.index t a * S1000x2.size a ≤ (i a).val ∧ (i a).val < win2_6.index t a * S1000x2.size a + S1000x2.size a := by
  show i ∈ ((View.whole main_v61).slice (win2_6.rect t)).set ↔ _
  rw [View.set_slice_whole, Rect.mem_set_unit]
  exact Iff.rfl

/-- Row `i` lies in block `i / 1000`. -/
theorem cover (i : S25000x2.Idx) : ∃ t : Fin cfg2.N, (cfg2.win 6).flush t = true ∧ i ∈ ((cfg2.win 6).blk t).view.set := by
  have hi0 : (i 0).val < 25000 := (i 0).isLt
  have hi1 : (i 1).val < 2 := (i 1).isLt
  have hN : cfg2.N = 25 := N_2
  let t : Fin cfg2.N := ⟨(i 0).val / 1000, by rw [hN]; omega⟩
  obtain ⟨-, -, -, -, -, -, -, -, -, -, -, -, e0, e1⟩ := idx_facts t
  have ht : t.val = (i 0).val / 1000 := rfl
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; rw [e0, ht]; omega
  | ⟨1, _⟩ => show win2_6.index t (1 : Fin 2) * 2 ≤ (i 1).val ∧ (i 1).val < win2_6.index t (1 : Fin 2) * 2 + 2; rw [e1]; omega

/-- The output array after the region. -/
theorem final (c : Dev nD) : (dat2 V c).arrAt 6 cfg2.N
    = out (V c main_v56) (V c main_v43) (V c main_v27) (V c main_v59) (V c main_v57) (V c main_v60) :=
  (dat2 V c).arrAt_eq_of_cover 6 _ (fun t _ => flushed_eq V c t) cover

end Cert.KernelIdeal.Layer2

end
-- ==== Proof.RefRead.lean ====
/-
  The reference, read at an entry, layer by layer.

  The reference computes `hw = h · W`, aggregates it over the edges, adds `hw · dis²` row by row and the bias column by
  column, rectifies, and repeats; each head is one more product with a 512×1 column plus a scalar bias.  The lemmas
  below collapse the chains of broadcasts the lowering spells (`[25000] → [25000,1] → [25000,512]` for the self-loop
  coefficient, `[512] → [1,512] → [25000,512]` for a bias, `[1] → [1,1] → [25000,1]` for a head bias) to the one entry
  each reads, and state every product as `∑ k, left (p, k) · right (k, q)`.
-/
import proofs.«159074_j11647951306787_2_alg».proof.Proof.Gen.ReferenceIdeal.Read

set_option maxRecDepth 16384

noncomputable section

open Idealize.ShloMosaic Idealize.ShloMosaic.TcCoe Idealize.SL.Sem
open Idealize.ShloMosaic.ValueIdx

namespace Cert.ReferenceIdeal.Layers

open Cert.ReferenceIdeal Cert.ReferenceIdeal.Read

/-- The first product at entry `(p, q)`. -/
theorem dot1_apply (x0 : (⟨S25000x512, .f32⟩ : BufTy).Contents (Elt Ideal)) (x2 : (⟨S512x512, .f32⟩ : BufTy).Contents (Elt Ideal)) (p : Fin 25000) (q : Fin 512) :
    val_main_v26 (F := Ideal) x0 x2 (ix2 p q) = ∑ k : Fin 512, x0 (ix2 p k) * x2 (ix2 k q) := by
  rw [val_main_v26_apply]
  refine Finset.sum_congr rfl fun k _ => ?_
  have el : lidx_main_v26 (ix2 p q) k = ix2 p k := funext fun a => Fin.ext (by
    match a with
    | ⟨0, _⟩ => rfl
    | ⟨1, _⟩ => rfl)
  have er : ridx_main_v26 (ix2 p q) k = ix2 k q := funext fun a => Fin.ext (by
    match a with
    | ⟨0, _⟩ => rfl
    | ⟨1, _⟩ => rfl)
  rw [el, er]

/-- The first layer's rectified state at `(p, k)`: aggregated sum, plus own feature times the row's coefficient, plus the
    column's bias, rectified. -/
theorem hidden1_apply (x0 : (⟨S25000x512, .f32⟩ : BufTy).Contents (Elt Ideal)) (x1 : (⟨S2x200000, .i32⟩ : BufTy).Contents (Elt Ideal)) (x2 : (⟨S512x512, .f32⟩ : BufTy).Contents (Elt Ideal)) (x3 : (⟨S512, .f32⟩ : BufTy).Contents (Elt Ideal))
    (p : Fin 25000) (k : Fin 512) :
    val_main_v48 (F := Ideal) x0 x1 x2 x3 (ix2 p k)
      = max ((val_main_v39 (F := Ideal) x0 x1 x2 (ix2 p k)
            + val_main_v26 (F := Ideal) x0 x2 (ix2 p k) * val_main_v40 (F := Ideal) x1 (ix1 p)) + x3 (ix1 k))
          (Ideal.ofBits .f32 0x00000000#32) := by
  rw [val_main_v48_apply, val_main_v47_apply, val_main_v44_apply, val_main_v43_apply, val_main_v42_apply, val_main_v41_apply,
    val_main_v46_apply, val_main_v45_apply, val_main_call0_v0_apply, val_main_call0_cst_apply]
  have e1 : idx_main_v41 (idx_main_v42 (ix2 p k)) = ix1 p := funext fun a => Fin.ext (by
    match a with
    | ⟨0, _⟩ => rfl)
  have e2 : idx_main_v45 (idx_main_v46 (ix2 p k)) = ix1 k := funext fun a => Fin.ext (by
    match a with
    | ⟨0, _⟩ => rfl)
  rw [e1, e2]
  rfl

/-- The second product at entry `(p, q)`. -/
theorem dot2_apply (x0 : (⟨S25000x512, .f32⟩ : BufTy).Contents (Elt Ideal)) (x1 : (⟨S2x200000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (p : Fin 25000) (q : Fin 512) :
    val_main_v49 (F := Ideal) x0 x1 x2 x3 x4 (ix2 p q)
      = ∑ k : Fin 512, val_main_v48 (F := Ideal) x0 x1 x2 x3 (ix2 p k) * x4 (ix2 k q) := by
  rw [val_main_v49_apply]
  refine Finset.sum_congr rfl fun k _ => ?_
  have el : lidx_main_v49 (ix2 p q) k = ix2 p k := funext fun a => Fin.ext (by
    match a with
    | ⟨0, _⟩ => rfl
    | ⟨1, _⟩ => rfl)
  have er : ridx_main_v49 (ix2 p q) k = ix2 k q := funext fun a => Fin.ext (by
    match a with
    | ⟨0, _⟩ => rfl
    | ⟨1, _⟩ => rfl)
  rw [el, er]

/-- The second layer's rectified state at `(p, k)`. -/
theorem hidden2_apply (x0 : (⟨S25000x512, .f32⟩ : BufTy).Contents (Elt Ideal)) (x1 : (⟨S2x200000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (p : Fin 25000) (k : Fin 512) :
    val_main_v71 (F := Ideal) x0 x1 x2 x3 x4 x5 (ix2 p k)
      = max ((val_main_v62 (F := Ideal) x0 x1 x2 x3 x4 (ix2 p k)
            + val_main_v49 (F := Ideal) x0 x1 x2 x3 x4 (ix2 p k) * val_main_v40 (F := Ideal) x1 (ix1 p)) + x5 (ix1 k))
          (Ideal.ofBits .f32 0x00000000#32) := by
  rw [val_main_v71_apply, val_main_v70_apply, val_main_v67_apply, val_main_v66_apply, val_main_v65_apply, val_main_v64_apply,
    val_main_v69_apply, val_main_v68_apply, val_main_call1_v0_apply, val_main_call1_cst_apply]
  have e1 : idx_main_v64 (idx_main_v65 (ix2 p k)) = ix1 p := funext fun a => Fin.ext (by
    match a with
    | ⟨0, _⟩ => rfl)
  have e2 : idx_main_v68 (idx_main_v69 (ix2 p k)) = ix1 k := funext fun a => Fin.ext (by
    match a with
    | ⟨0, _⟩ => rfl)
  rw [e1, e2]
  rfl

/-- The first head at node `p`: the rectified state's row against the head's column, plus the head's bias. -/
theorem head0_apply (x0 : (⟨S25000x512, .f32⟩ : BufTy).Contents (Elt Ideal)) (x1 : (⟨S2x200000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (p : Fin 25000) :
    val_main_v76 (F := Ideal) x0 x1 x2 x3 x4 x5 x6 x7 (ix1 p)
      = (∑ k : Fin 512, val_main_v71 (F := Ideal) x0 x1 x2 x3 x4 x5 (ix2 p k) * x6 (ix2 k (0 : Fin 1))) + x7 (ix1 (0 : Fin 1)) := by
  have e0 : idx_main_v76 (ix1 p) = ix2 p (0 : Fin 1) := funext fun a => Fin.ext (by
    match a with
    | ⟨0, _⟩ => show p.val / 1 = p.val; omega
    | ⟨1, _⟩ => rfl)
  rw [val_main_v76_apply, e0, val_main_v75_apply, val_main_v72_apply, val_main_v74_apply, val_main_v73_apply]
  have e1 : idx_main_v73 (idx_main_v74 (ix2 p (0 : Fin 1))) = ix1 (0 : Fin 1) := funext fun a => Fin.ext (by
    match a with
    | ⟨0, _⟩ => rfl)
  rw [e1]
  refine congrArg₂ (fun (u v : EReal) => u + v) (Finset.sum_congr rfl fun k _ => ?_) rfl
  have el : lidx_main_v72 (ix2 p (0 : Fin 1)) k = ix2 p k := funext fun a => Fin.ext (by
    match a with
    | ⟨0, _⟩ => rfl
    | ⟨1, _⟩ => rfl)
  have er : ridx_main_v72 (ix2 p (0 : Fin 1)) k = ix2 k (0 : Fin 1) := funext fun a => Fin.ext (by
    match a with
    | ⟨0, _⟩ => rfl
    | ⟨1, _⟩ => rfl)
  rw [el, er]

/-- The second head at node `p`. -/
theorem head1_apply (x0 : (⟨S25000x512, .f32⟩ : BufTy).Contents (Elt Ideal)) (x1 : (⟨S2x200000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x8 : (⟨S512x1, .f32⟩ : BufTy).Contents (Elt Ideal)) (x9 : (⟨S1, .f32⟩ : BufTy).Contents (Elt Ideal)) (p : Fin 25000) :
    val_main_v81 (F := Ideal) x0 x1 x2 x3 x4 x5 x8 x9 (ix1 p)
      = (∑ k : Fin 512, val_main_v71 (F := Ideal) x0 x1 x2 x3 x4 x5 (ix2 p k) * x8 (ix2 k (0 : Fin 1))) + x9 (ix1 (0 : Fin 1)) := by
  have e0 : idx_main_v81 (ix1 p) = ix2 p (0 : Fin 1) := funext fun a => Fin.ext (by
    match a with
    | ⟨0, _⟩ => show p.val / 1 = p.val; omega
    | ⟨1, _⟩ => rfl)
  rw [val_main_v81_apply, e0, val_main_v80_apply, val_main_v77_apply, val_main_v79_apply, val_main_v78_apply]
  have e1 : idx_main_v78 (idx_main_v79 (ix2 p (0 : Fin 1))) = ix1 (0 : Fin 1) := funext fun a => Fin.ext (by
    match a with
    | ⟨0, _⟩ => rfl)
  rw [e1]
  refine congrArg₂ (fun (u v : EReal) => u + v) (Finset.sum_congr rfl fun k _ => ?_) rfl
  have el : lidx_main_v77 (ix2 p (0 : Fin 1)) k = ix2 p k := funext fun a => Fin.ext (by
    match a with
    | ⟨0, _⟩ => rfl
    | ⟨1, _⟩ => rfl)
  have er : ridx_main_v77 (ix2 p (0 : Fin 1)) k = ix2 k (0 : Fin 1) := funext fun a => Fin.ext (by
    match a with
    | ⟨0, _⟩ => rfl
    | ⟨1, _⟩ => rfl)
  rw [el, er]

end Cert.ReferenceIdeal.Layers

end
-- ==== Proof.Join.lean ====
/-
  The three regions' functions are the reference's stages.

  * The first region's product of the two argument arrays is the reference's first `dot_general`: the same sum at every entry.
  * Fed the reference's first aggregation, its first product, the self-loop coefficients as a column and the first bias
    as a row, the second region's function is the reference's second `dot_general`: at `(p, k)` both rectify
    `(agg + hw · dis²ₚ) + bₖ` — the kernel reads `dis²` through a reshape `[25000] → [25000, 1]` and the bias through a
    reshape `[512] → [1, 512]`, the reference through chains of broadcasts; each reads the one entry — and both sum
    the products with the second weight matrix over `k`.
  * Fed the second aggregation and the second product, the third region's column `0` (resp. `1`), sliced off and flattened,
    is the reference's first (resp. second) head: column `0` of the two head columns set side by side is the first head's column, entry
    `0` of the two head biases set end to end is the first head's bias, and likewise for `1`.
  No law of the extended reals beyond these rearrangements of indices is used: the two programs add and multiply the same
  numbers in the same order.
-/
import proofs.«159074_j11647951306787_2_alg».proof.Proof.Region1
import proofs.«159074_j11647951306787_2_alg».proof.Proof.Region2
import proofs.«159074_j11647951306787_2_alg».proof.Proof.RefRead

set_option maxRecDepth 16384

noncomputable section

open Idealize.ShloMosaic Idealize.ShloMosaic.TcCoe Idealize.SL.Sem
open Idealize.ShloMosaic.ValueIdx

namespace Cert.Join

open Cert.ReferenceIdeal.Read Cert.ReferenceIdeal.Layers

/-- The first region's product is the reference's first `dot_general`. -/
theorem prod_eq (x0 : (⟨ReferenceIdeal.S25000x512, .f32⟩ : BufTy).Contents (Elt Ideal)) (x2 : (⟨ReferenceIdeal.S512x512, .f32⟩ : BufTy).Contents (Elt Ideal)) :
    KernelIdeal.Layer0.prod x0 x2 = val_main_v26 (F := Ideal) x0 x2 := by
  funext i
  obtain ⟨p, q, rfl⟩ : ∃ (p : Fin 25000) (q : Fin 512), i = ix2 p q := ⟨i 0, i 1, eq_ix2 i⟩
  rw [dot1_apply]
  rfl

/-- The rectified combination over the reference's first-layer stages is the reference's first rectified state. -/
theorem act1_apply (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal))
    (h1 : KernelIdeal.S25000.ShapeCasts KernelIdeal.S25000x1) (h2 : KernelIdeal.S512.ShapeCasts KernelIdeal.S1x512)
    (p : Fin 25000) (k : Fin 512) :
    KernelIdeal.Combine.act (val_main_v39 (F := Ideal) x0 x1 x2) (val_main_v26 (F := Ideal) x0 x2)
        (shapeCast KernelIdeal.S25000x1 (val_main_v40 (F := Ideal) x1) h1) (shapeCast KernelIdeal.S1x512 x3 h2) (ix2 p k)
      = val_main_v48 (F := Ideal) x0 x1 x2 x3 (ix2 p k) := by
  rw [hidden1_apply]
  unfold KernelIdeal.Combine.act
  show max ((val_main_v39 (F := Ideal) x0 x1 x2 (ix2 p k) + val_main_v26 (F := Ideal) x0 x2 (ix2 p k)
        * shapeCast KernelIdeal.S25000x1 (val_main_v40 (F := Ideal) x1) h1 (ix2 p (0 : Fin 1)))
      + shapeCast KernelIdeal.S1x512 x3 h2 (ix2 (0 : Fin 1) k)) _ = _
  rw [Cert.ColumnLayouts.shapeCast_a_a1_apply (val_main_v40 (F := Ideal) x1) h1 p (0 : Fin 1),
    shapeCast_a_1a_apply x3 h2 (0 : Fin 1) k]

/-- The second region's function of the reference's first-layer stages is the reference's second `dot_general`. -/
theorem layer1_eq (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal)) (x4 : (⟨ReferenceIdeal.S512x512, .f32⟩ : BufTy).Contents (Elt Ideal))
    (h1 : KernelIdeal.S25000.ShapeCasts KernelIdeal.S25000x1) (h2 : KernelIdeal.S512.ShapeCasts KernelIdeal.S1x512) :
    KernelIdeal.Layer1.out (val_main_v39 (F := Ideal) x0 x1 x2) (val_main_v26 (F := Ideal) x0 x2)
        (shapeCast KernelIdeal.S25000x1 (val_main_v40 (F := Ideal) x1) h1) (shapeCast KernelIdeal.S1x512 x3 h2) x4
      = val_main_v49 (F := Ideal) x0 x1 x2 x3 x4 := by
  funext i
  obtain ⟨p, q, rfl⟩ : ∃ (p : Fin 25000) (q : Fin 512), i = ix2 p q := ⟨i 0, i 1, eq_ix2 i⟩
  rw [dot2_apply]
  unfold KernelIdeal.Layer1.out KernelIdeal.Layer0.prod
  refine Finset.sum_congr rfl fun k _ => congrArg₂ (fun (u v : EReal) => u * v) ?_ rfl
  exact act1_apply x0 x1 x2 x3 h1 h2 p k

/-- The rectified combination over the reference's second-layer stages is the reference's second rectified state. -/
theorem act2_apply (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal)) (x4 : (⟨ReferenceIdeal.S512x512, .f32⟩ : BufTy).Contents (Elt Ideal)) (x5 : (⟨ReferenceIdeal.S512, .f32⟩ : BufTy).Contents (Elt Ideal))
    (h1 : KernelIdeal.S25000.ShapeCasts KernelIdeal.S25000x1) (h2 : KernelIdeal.S512.ShapeCasts KernelIdeal.S1x512)
    (p : Fin 25000) (k : Fin 512) :
    KernelIdeal.Combine.act (val_main_v62 (F := Ideal) x0 x1 x2 x3 x4) (val_main_v49 (F := Ideal) x0 x1 x2 x3 x4)
        (shapeCast KernelIdeal.S25000x1 (val_main_v40 (F := Ideal) x1) h1) (shapeCast KernelIdeal.S1x512 x5 h2) (ix2 p k)
      = val_main_v71 (F := Ideal) x0 x1 x2 x3 x4 x5 (ix2 p k) := by
  rw [hidden2_apply]
  unfold KernelIdeal.Combine.act
  show max ((val_main_v62 (F := Ideal) x0 x1 x2 x3 x4 (ix2 p k) + val_main_v49 (F := Ideal) x0 x1 x2 x3 x4 (ix2 p k)
        * shapeCast KernelIdeal.S25000x1 (val_main_v40 (F := Ideal) x1) h1 (ix2 p (0 : Fin 1)))
      + shapeCast KernelIdeal.S1x512 x5 h2 (ix2 (0 : Fin 1) k)) _ = _
  rw [Cert.ColumnLayouts.shapeCast_a_a1_apply (val_main_v40 (F := Ideal) x1) h1 p (0 : Fin 1),
    shapeCast_a_1a_apply x5 h2 (0 : Fin 1) k]

/-- The third region's function of the reference's second-layer stages, at node `p` and head column `j`, when the head
    matrix's column `j` is `w` and the head biases' entry `j` is `b`. -/
theorem logits_apply (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal)) (x4 : (⟨ReferenceIdeal.S512x512, .f32⟩ : BufTy).Contents (Elt Ideal)) (x5 : (⟨ReferenceIdeal.S512, .f32⟩ : BufTy).Contents (Elt Ideal))
    (h1 : KernelIdeal.S25000.ShapeCasts KernelIdeal.S25000x1) (h2 : KernelIdeal.S512.ShapeCasts KernelIdeal.S1x512)
    (Wov : KernelIdeal.S512x2.Idx → EReal) (Bov : KernelIdeal.S1x2.Idx → EReal) (w : ReferenceIdeal.S512x1.Idx → EReal) (b : EReal)
    (j : Fin 2) (hw : ∀ k : Fin 512, Wov (ix2 k j) = w (ix2 k (0 : Fin 1))) (hb : Bov (ix2 (0 : Fin 1) j) = b) (p : Fin 25000) :
    KernelIdeal.Layer2.out (val_main_v62 (F := Ideal) x0 x1 x2 x3 x4) (val_main_v49 (F := Ideal) x0 x1 x2 x3 x4)
        (shapeCast KernelIdeal.S25000x1 (val_main_v40 (F := Ideal) x1) h1) (shapeCast KernelIdeal.S1x512 x5 h2) Wov Bov (ix2 p j)
      = (∑ k : Fin 512, val_main_v71 (F := Ideal) x0 x1 x2 x3 x4 x5 (ix2 p k) * w (ix2 k (0 : Fin 1))) + b := by
  unfold KernelIdeal.Layer2.out
  refine congrArg₂ (fun (u v : EReal) => u + v) (Finset.sum_congr rfl fun k _ => congrArg₂ (fun (u v : EReal) => u * v) ?_ ?_) ?_
  · exact act2_apply x0 x1 x2 x3 x4 x5 h1 h2 p k
  · exact hw k
  · exact hb

end Cert.Join

end
-- ==== Proof.Walk1.lean ====
/-
  The kernel's buffers at the first three boundaries of its run, as the reference's stages.

  Before any region the host computes, from the edge list alone, the source and destination lists, the symmetric edge
  weights and the self-loop coefficients — by the very operations the reference uses, so each buffer holds the
  reference's stage of the same name; the kernel reshapes the coefficients into a column where the reference will
  broadcast them.  The first region then leaves the first product, the second stretch aggregates it over the edges
  (again the reference's own operations, applied to equal arrays) and reshapes the first bias into a row.  A buffer
  that a stretch does not write, and that is not a region's output, keeps its contents across it.
-/
import proofs.«159074_j11647951306787_2_alg».proof.Proof.Gen.KernelIdeal.Frame
import proofs.«159074_j11647951306787_2_alg».proof.Proof.Region0
import proofs.«159074_j11647951306787_2_alg».proof.Proof.Join
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Walk

open Cert.KernelIdeal Cert.KernelIdeal.Gen
open Cert.ReferenceIdeal.Read (val_main_v1 val_main_v3 val_main_v25 val_main_v26 val_main_v39 val_main_v40 val_main_v49 val_main_v62)

variable (m : (ℓ : Loc nD τ sig) → Buf (Elt Ideal) ℓ) (ρ : Dev nD → PrngReg) (c : Dev nD)

/-! ## After the first stretch of host operations: the edge lists, the edge weights, the self-loop column -/

theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w1_arg9 : W1 m ρ c (Proc.devRef .tc main_arg9) = (m ((c : Thread nD τ).loc main_arg9)) := by
  show StableHlo.after hostOps0 (W0 m ρ c) (Proc.devRef .tc main_arg9) = _
  after_results_simp <;> rfl
theorem w1_v1 : W1 m ρ c (Proc.devRef .tc main_v1) = (val_main_v1 (F := Ideal) (m ((c : Thread nD τ).loc main_arg1))) := by
  show StableHlo.after hostOps0 (W0 m ρ c) (Proc.devRef .tc main_v1) = _
  after_results_simp <;> rfl
theorem w1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl
theorem w1_v25 : W1 m ρ c (Proc.devRef .tc main_v25) = (val_main_v25 (F := Ideal) (m ((c : Thread nD τ).loc main_arg1))) := by
  show StableHlo.after hostOps0 (W0 m ρ c) (Proc.devRef .tc main_v25) = _
  after_results_simp <;> rfl
theorem w1_v27 : W1 m ρ c (Proc.devRef .tc main_v27) = (shapeCast S25000x1 (val_main_v40 (F := Ideal) (m ((c : Thread nD τ).loc main_arg1))) shapeCasts_S25000_S25000x1) := by
  show StableHlo.after hostOps0 (W0 m ρ c) (Proc.devRef .tc main_v27) = _
  after_results_simp <;> rfl

/-! ## After the first region: the first product -/

theorem w2_v28 : W2 m ρ c (Proc.devRef .tc main_v28) = (val_main_v26 (F := Ideal) (m ((c : Thread nD τ).loc main_arg0)) (m ((c : Thread nD τ).loc main_arg2))) := by
  refine (W2_arr m ρ c 2).trans ((Layer0.final (V1 m ρ) c).trans ?_)
  show Layer0.prod (W1 m ρ c (Proc.devRef .tc main_arg0)) (W1 m ρ c (Proc.devRef .tc main_arg2)) = _
  rw [w1_arg0 m ρ c, w1_arg2 m ρ c]
  exact Cert.Join.prod_eq _ _
theorem w2_v1 : W2 m ρ c (Proc.devRef .tc main_v1) = (val_main_v1 (F := Ideal) (m ((c : Thread nD τ).loc main_arg1))) :=
  (W2_of_ne m ρ c main_v1 (by decide)).trans (w1_v1 m ρ c)
theorem w2_v3 : W2 m ρ c (Proc.devRef .tc main_v3) = (val_main_v3 (F := Ideal) (m ((c : Thread nD τ).loc main_arg1))) :=
  (W2_of_ne m ρ c main_v3 (by decide)).trans (w1_v3 m ρ c)
theorem w2_v25 : W2 m ρ c (Proc.devRef .tc main_v25) = (val_main_v25 (F := Ideal) (m ((c : Thread nD τ).loc main_arg1))) :=
  (W2_of_ne m ρ c main_v25 (by decide)).trans (w1_v25 m ρ c)
theorem w2_v27 : W2 m ρ c (Proc.devRef .tc main_v27) = (shapeCast S25000x1 (val_main_v40 (F := Ideal) (m ((c : Thread nD τ).loc main_arg1))) shapeCasts_S25000_S25000x1) :=
  (W2_of_ne m ρ c main_v27 (by decide)).trans (w1_v27 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-! ## After the second stretch: the first aggregation, the first bias as a row -/

theorem w3_v41 : W3 m ρ c (Proc.devRef .tc main_v41) = (val_main_v39 (F := Ideal) (m ((c : Thread nD τ).loc main_arg0)) (m ((c : Thread nD τ).loc main_arg1)) (m ((c : Thread nD τ).loc main_arg2))) := by
  show StableHlo.after hostOps1 (W2 m ρ c) (Proc.devRef .tc main_v41) = _
  after_results_simp
  rw [w2_v28 m ρ c, w2_v1 m ρ c, w2_v3 m ρ c, w2_v25 m ρ c]
  rfl
theorem w3_v42 : W3 m ρ c (Proc.devRef .tc main_v42) = (shapeCast S1x512 (m ((c : Thread nD τ).loc main_arg3)) shapeCasts_S512_S1x512) := by
  show StableHlo.after hostOps1 (W2 m ρ c) (Proc.devRef .tc main_v42) = _
  after_results_simp
  rw [w2_arg3 m ρ c]
  rfl
theorem w3_v28 : W3 m ρ c (Proc.devRef .tc main_v28) = (val_main_v26 (F := Ideal) (m ((c : Thread nD τ).loc main_arg0)) (m ((c : Thread nD τ).loc main_arg2))) := by
  show StableHlo.after hostOps1 (W2 m ρ c) (Proc.devRef .tc main_v28) = _
  after_results_simp
  exact w2_v28 m ρ c
theorem w3_v27 : W3 m ρ c (Proc.devRef .tc main_v27) = (shapeCast S25000x1 (val_main_v40 (F := Ideal) (m ((c : Thread nD τ).loc main_arg1))) shapeCasts_S25000_S25000x1) := by
  show StableHlo.after hostOps1 (W2 m ρ c) (Proc.devRef .tc main_v27) = _
  after_results_simp
  exact w2_v27 m ρ c
theorem w3_arg4 : W3 m ρ c (Proc.devRef .tc main_arg4) = (m ((c : Thread nD τ).loc main_arg4)) := by
  show StableHlo.after hostOps1 (W2 m ρ c) (Proc.devRef .tc main_arg4) = _
  after_results_simp
  exact w2_arg4 m ρ c
theorem w3_v1 : W3 m ρ c (Proc.devRef .tc main_v1) = (val_main_v1 (F := Ideal) (m ((c : Thread nD τ).loc main_arg1))) := by
  show StableHlo.after hostOps1 (W2 m ρ c) (Proc.devRef .tc main_v1) = _
  after_results_simp
  exact w2_v1 m ρ c
theorem w3_v3 : W3 m ρ c (Proc.devRef .tc main_v3) = (val_main_v3 (F := Ideal) (m ((c : Thread nD τ).loc main_arg1))) := by
  show StableHlo.after hostOps1 (W2 m ρ c) (Proc.devRef .tc main_v3) = _
  after_results_simp
  exact w2_v3 m ρ c
theorem w3_v25 : W3 m ρ c (Proc.devRef .tc main_v25) = (val_main_v25 (F := Ideal) (m ((c : Thread nD τ).loc main_arg1))) := by
  show StableHlo.after hostOps1 (W2 m ρ c) (Proc.devRef .tc main_v25) = _
  after_results_simp
  exact w2_v25 m ρ c
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w3_arg6 : W3 m ρ c (Proc.devRef .tc main_arg6) = (m ((c : Thread nD τ).loc main_arg6)) := by
  show StableHlo.after hostOps1 (W2 m ρ c) (Proc.devRef .tc main_arg6) = _
  after_results_simp
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c

end Cert.KernelIdeal.Walk

end
-- ==== Proof.Heads.lean ====
/-
  The two heads, read off the third region's output.

  The kernel sets the two 512×1 head columns side by side as a 512×2 matrix and the two head biases end to end as a
  1×2 row, runs both heads in one product, and afterwards slices column `0` and column `1` off the 25000×2 result and
  flattens each.  Column `0` of the side-by-side matrix is the first head's column and entry `0` of the end-to-end row is
  its bias (the coordinate falls in the first piece of each concatenation); column `1` and entry `1` fall in the second
  pieces.  So each flattened column is, node by node, the reference's head: its rectified second-layer row against the
  head's column, plus the head's bias.
-/
import proofs.«159074_j11647951306787_2_alg».proof.Proof.Join

set_option maxRecDepth 16384

noncomputable section

open Idealize.ShloMosaic Idealize.ShloMosaic.TcCoe Idealize.SL.Sem
open Idealize.ShloMosaic.ValueIdx

namespace Cert.Join

open Cert.ReferenceIdeal.Read Cert.ReferenceIdeal.Layers

/-- Column `0` of the third region's output, sliced off and flattened, is the reference's first head. -/
theorem head0_eq (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal)) (x4 : (⟨ReferenceIdeal.S512x512, .f32⟩ : BufTy).Contents (Elt Ideal)) (x5 : (⟨ReferenceIdeal.S512, .f32⟩ : BufTy).Contents (Elt Ideal))
    (x6 : (⟨ReferenceIdeal.S512x1, .f32⟩ : BufTy).Contents (Elt Ideal)) (x7 : (⟨ReferenceIdeal.S1, .f32⟩ : BufTy).Contents (Elt Ideal)) (x8 : (⟨ReferenceIdeal.S512x1, .f32⟩ : BufTy).Contents (Elt Ideal)) (x9 : (⟨ReferenceIdeal.S1, .f32⟩ : BufTy).Contents (Elt Ideal))
    (h1 : KernelIdeal.S25000.ShapeCasts KernelIdeal.S25000x1) (h2 : KernelIdeal.S512.ShapeCasts KernelIdeal.S1x512)
    (hcat : Shape.Concatenates [KernelIdeal.S512x1, KernelIdeal.S512x1] KernelIdeal.S512x2 1)
    (hcat' : Shape.Concatenates [KernelIdeal.S1, KernelIdeal.S1] KernelIdeal.S2 0) (h3 : KernelIdeal.S2.ShapeCasts KernelIdeal.S1x2)
    (hs : KernelIdeal.S25000x2.Slices ![0, 0] KernelIdeal.S25000x1) (hc : KernelIdeal.S25000x1.ShapeCasts KernelIdeal.S25000) :
    shapeCast KernelIdeal.S25000 (extractStridedSlice KernelIdeal.S25000x1 ![0, 0]
        (KernelIdeal.Layer2.out (val_main_v62 (F := Ideal) x0 x1 x2 x3 x4) (val_main_v49 (F := Ideal) x0 x1 x2 x3 x4)
          (shapeCast KernelIdeal.S25000x1 (val_main_v40 (F := Ideal) x1) h1) (shapeCast KernelIdeal.S1x512 x5 h2)
          (concatenate KernelIdeal.S512x2 1 [⟨KernelIdeal.S512x1, x6⟩, ⟨KernelIdeal.S512x1, x8⟩] hcat)
          (shapeCast KernelIdeal.S1x2 (concatenate KernelIdeal.S2 0 [⟨KernelIdeal.S1, x7⟩, ⟨KernelIdeal.S1, x9⟩] hcat') h3)) hs) hc
      = val_main_v76 (F := Ideal) x0 x1 x2 x3 x4 x5 x6 x7 := by
  funext i
  obtain ⟨p, rfl⟩ : ∃ p : Fin 25000, i = ix1 p := ⟨i 0, eq_ix1 i⟩
  rw [head0_apply]
  refine (shapeCast_apply (s := KernelIdeal.S25000x1) (t := KernelIdeal.S25000) _ hc (ix1 p) (ix2 p (0 : Fin 1)) (by
    rw [Shape.rowMajor_val_two, Shape.rowMajor_val_one]
    show p.val * 1 + 0 = p.val
    omega)).trans ?_
  refine (extractStridedSlice_apply (s := KernelIdeal.S25000x2) (t := KernelIdeal.S25000x1) ![0, 0] _ hs (ix2 p (0 : Fin 1)) (ix2 p (0 : Fin 2)) (fun a => by
    match a with
    | ⟨0, _⟩ => show p.val = 0 + p.val; omega
    | ⟨1, _⟩ => rfl)).trans ?_
  refine logits_apply x0 x1 x2 x3 x4 x5 h1 h2 _ _ x6 (x7 (ix1 (0 : Fin 1))) (0 : Fin 2) (fun k => ?_) ?_ p
  · exact concatenate_pair_apply_left (1 : Fin 2) x6 x8 hcat (ix2 k (0 : Fin 2)) rfl (ix2 k (0 : Fin 1)) (fun b => by
        match b with
        | ⟨0, _⟩ => rfl
        | ⟨1, _⟩ => rfl)
  · exact (shapeCast_a_1a_apply _ h3 (0 : Fin 1) (0 : Fin 2)).trans (concatenate_pair_apply_left (0 : Fin 1) x7 x9 hcat' (ix1 (0 : Fin 2)) rfl (ix1 (0 : Fin 1)) (fun b => by
        match b with
        | ⟨0, _⟩ => rfl))

/-- Column `1` of the third region's output, sliced off and flattened, is the reference's second head. -/
theorem head1_eq (x0 : (⟨ReferenceIdeal.S25000x512, .f32⟩ : BufTy).Contents (Elt Ideal)) (x1 : (⟨ReferenceIdeal.S2x200000, .i32⟩ : BufTy).Contents (Elt Ideal)) (x2 : (⟨ReferenceIdeal.S512x512, .f32⟩ : BufTy).Contents (Elt Ideal)) (x3 : (⟨ReferenceIdeal.S512, .f32⟩ : BufTy).Contents (Elt Ideal)) (x4 : (⟨ReferenceIdeal.S512x512, .f32⟩ : BufTy).Contents (Elt Ideal)) (x5 : (⟨ReferenceIdeal.S512, .f32⟩ : BufTy).Contents (Elt Ideal))
    (x6 : (⟨ReferenceIdeal.S512x1, .f32⟩ : BufTy).Contents (Elt Ideal)) (x7 : (⟨ReferenceIdeal.S1, .f32⟩ : BufTy).Contents (Elt Ideal)) (x8 : (⟨ReferenceIdeal.S512x1, .f32⟩ : BufTy).Contents (Elt Ideal)) (x9 : (⟨ReferenceIdeal.S1, .f32⟩ : BufTy).Contents (Elt Ideal))
    (h1 : KernelIdeal.S25000.ShapeCasts KernelIdeal.S25000x1) (h2 : KernelIdeal.S512.ShapeCasts KernelIdeal.S1x512)
    (hcat : Shape.Concatenates [KernelIdeal.S512x1, KernelIdeal.S512x1] KernelIdeal.S512x2 1)
    (hcat' : Shape.Concatenates [KernelIdeal.S1, KernelIdeal.S1] KernelIdeal.S2 0) (h3 : KernelIdeal.S2.ShapeCasts KernelIdeal.S1x2)
    (hs : KernelIdeal.S25000x2.Slices ![0, 1] KernelIdeal.S25000x1) (hc : KernelIdeal.S25000x1.ShapeCasts KernelIdeal.S25000) :
    shapeCast KernelIdeal.S25000 (extractStridedSlice KernelIdeal.S25000x1 ![0, 1]
        (KernelIdeal.Layer2.out (val_main_v62 (F := Ideal) x0 x1 x2 x3 x4) (val_main_v49 (F := Ideal) x0 x1 x2 x3 x4)
          (shapeCast KernelIdeal.S25000x1 (val_main_v40 (F := Ideal) x1) h1) (shapeCast KernelIdeal.S1x512 x5 h2)
          (concatenate KernelIdeal.S512x2 1 [⟨KernelIdeal.S512x1, x6⟩, ⟨KernelIdeal.S512x1, x8⟩] hcat)
          (shapeCast KernelIdeal.S1x2 (concatenate KernelIdeal.S2 0 [⟨KernelIdeal.S1, x7⟩, ⟨KernelIdeal.S1, x9⟩] hcat') h3)) hs) hc
      = val_main_v81 (F := Ideal) x0 x1 x2 x3 x4 x5 x8 x9 := by
  funext i
  obtain ⟨p, rfl⟩ : ∃ p : Fin 25000, i = ix1 p := ⟨i 0, eq_ix1 i⟩
  rw [head1_apply]
  refine (shapeCast_apply (s := KernelIdeal.S25000x1) (t := KernelIdeal.S25000) _ hc (ix1 p) (ix2 p (0 : Fin 1)) (by
    rw [Shape.rowMajor_val_two, Shape.rowMajor_val_one]
    show p.val * 1 + 0 = p.val
    omega)).trans ?_
  refine (extractStridedSlice_apply (s := KernelIdeal.S25000x2) (t := KernelIdeal.S25000x1) ![0, 1] _ hs (ix2 p (0 : Fin 1)) (ix2 p (1 : Fin 2)) (fun a => by
    match a with
    | ⟨0, _⟩ => show p.val = 0 + p.val; omega
    | ⟨1, _⟩ => rfl)).trans ?_
  refine logits_apply x0 x1 x2 x3 x4 x5 h1 h2 _ _ x8 (x9 (ix1 (0 : Fin 1))) (1 : Fin 2) (fun k => ?_) ?_ p
  · exact concatenate_pair_apply_right (1 : Fin 2) x6 x8 hcat (ix2 k (1 : Fin 2)) rfl rfl (ix2 k (0 : Fin 1)) (fun b hb => by
        match b with
        | ⟨0, _⟩ => rfl
        | ⟨1, _⟩ => exact absurd rfl hb) rfl
  · exact (shapeCast_a_1a_apply _ h3 (0 : Fin 1) (1 : Fin 2)).trans (concatenate_pair_apply_right (0 : Fin 1) x7 x9 hcat' (ix1 (1 : Fin 2)) rfl rfl (ix1 (0 : Fin 1)) (fun b hb => by
        match b with
        | ⟨0, _⟩ => exact absurd rfl hb) rfl)

end Cert.Join

end
-- ==== Proof.Walk2.lean ====
/-
  The kernel's buffers at the later boundaries of its run, down to its two results.

  The second region leaves the reference's second product (fed the first aggregation, the first product, the
  coefficient column and the bias row found at its entry); the third stretch aggregates it as the reference does, sets
  the two head columns side by side and the two head biases end to end; the third region leaves both heads' logits;
  the last stretch slices each column off and flattens it — the reference's two results.
-/
import proofs.«159074_j11647951306787_2_alg».proof.Proof.Walk1
import proofs.«159074_j11647951306787_2_alg».proof.Proof.Region1
import proofs.«159074_j11647951306787_2_alg».proof.Proof.Region2
import proofs.«159074_j11647951306787_2_alg».proof.Proof.Heads

set_option maxRecDepth 16384

noncomputable section

open Idealize.ShloMosaic Idealize.ShloMosaic.TcCoe Idealize.SL.Sem Idealize.ShloMosaic.StableHlo

namespace Cert.KernelIdeal.Walk

open Cert.KernelIdeal Cert.KernelIdeal.Gen
open Cert.ReferenceIdeal.Read (val_main_v1 val_main_v3 val_main_v25 val_main_v26 val_main_v39 val_main_v40 val_main_v49 val_main_v62 val_main_v76 val_main_v81)

/-- A two-piece concatenation depends only on its pieces' contents. -/
theorem concat_congr {α : Type} {t s₁ s₂ : Shape} (a : Fin t.rank) (h : Shape.Concatenates [s₁, s₂] t a)
    {x₁ x₁' : s₁.Idx → α} {x₂ x₂' : s₂.Idx → α} (e1 : x₁ = x₁') (e2 : x₂ = x₂') :
    concatenate t a [⟨s₁, x₁⟩, ⟨s₂, x₂⟩] h = concatenate t a [⟨s₁, x₁'⟩, ⟨s₂, x₂'⟩] h := by
  subst e1; subst e2; rfl

variable (m : (ℓ : Loc nD τ sig) → Buf (Elt Ideal) ℓ) (ρ : Dev nD → PrngReg) (c : Dev nD)

/-! ## After the second region: the second product -/

theorem w4_v43 : W4 m ρ c (Proc.devRef .tc main_v43) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 5).trans ((Layer1.final (V3 m ρ) c).trans ?_)
  show Layer1.out (W3 m ρ c (Proc.devRef .tc main_v41)) (W3 m ρ c (Proc.devRef .tc main_v28)) (W3 m ρ c (Proc.devRef .tc main_v27)) (W3 m ρ c (Proc.devRef .tc main_v42)) (W3 m ρ c (Proc.devRef .tc main_arg4)) = _
  rw [w3_v41 m ρ c, w3_v28 m ρ c, w3_v27 m ρ c, w3_v42 m ρ c, w3_arg4 m ρ c]
  exact Cert.Join.layer1_eq _ _ _ _ _ _ _
theorem w4_v27 : W4 m ρ c (Proc.devRef .tc main_v27) = (shapeCast S25000x1 (val_main_v40 (F := Ideal) (m ((c : Thread nD τ).loc main_arg1))) shapeCasts_S25000_S25000x1) :=
  (W4_arr m ρ c 2).trans (((dat1 (V3 m ρ) c).arrAt_in 2 rfl _).trans ((A_eq1 (V3 m ρ) c 2).trans (w3_v27 m ρ c)))
theorem w4_v1 : W4 m ρ c (Proc.devRef .tc main_v1) = (val_main_v1 (F := Ideal) (m ((c : Thread nD τ).loc main_arg1))) :=
  (W4_of_ne m ρ c main_v1 (by decide)).trans (w3_v1 m ρ c)
theorem w4_v3 : W4 m ρ c (Proc.devRef .tc main_v3) = (val_main_v3 (F := Ideal) (m ((c : Thread nD τ).loc main_arg1))) :=
  (W4_of_ne m ρ c main_v3 (by decide)).trans (w3_v3 m ρ c)
theorem w4_v25 : W4 m ρ c (Proc.devRef .tc main_v25) = (val_main_v25 (F := Ideal) (m ((c : Thread nD τ).loc main_arg1))) :=
  (W4_of_ne m ρ c main_v25 (by decide)).trans (w3_v25 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)

/-! ## After the third stretch: the second aggregation, the head matrix, the bias rows -/

theorem w5_v56 : W5 m ρ c (Proc.devRef .tc main_v56) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v56) = _
  after_results_simp
  rw [w4_v43 m ρ c, w4_v1 m ρ c, w4_v3 m ρ c, w4_v25 m ρ c]
  rfl
theorem w5_v57 : W5 m ρ c (Proc.devRef .tc main_v57) = (concatenate S512x2 1 [⟨S512x1, (m ((c : Thread nD τ).loc main_arg6))⟩, ⟨S512x1, (m ((c : Thread nD τ).loc main_arg8))⟩] concatenates_S512x1_S512x1_S512x2_d1) := by
  show StableHlo.after hostOps2 (W4 m ρ c) (Proc.devRef .tc main_v57) = _
  after_results_simp
  refine concat_congr (t := S512x2) (s₁ := S512x1) (s₂ := S512x1) 1 concatenates_S512x1_S512x1_S512x2_d1 ?_ ?_
  · after_results_simp
    exact w4_arg6 m ρ c
  · after_results_simp
    exact w4_arg8 m ρ c
theorem w5_v59 : W5 m ρ c (Proc.devRef .tc main_v59) = (shapeCast S1x512 (m ((c : Thread nD τ).loc main_arg5)) shapeCasts_S512_S1x512) := by
  show StableHlo.after hostOps2 (W4 m ρ c) (Proc.devRef .tc main_v59) = _
  after_results_simp
  rw [w4_arg5 m ρ c] <;> rfl
theorem w5_v60 : W5 m ρ c (Proc.devRef .tc main_v60) = (shapeCast S1x2 (concatenate S2 0 [⟨S1, (m ((c : Thread nD τ).loc main_arg7))⟩, ⟨S1, (m ((c : Thread nD τ).loc main_arg9))⟩] concatenates_S1_S1_S2_d0) shapeCasts_S2_S1x2) := by
  show StableHlo.after hostOps2 (W4 m ρ c) (Proc.devRef .tc main_v60) = _
  after_results_simp
  refine congrArg (fun z => shapeCast S1x2 z shapeCasts_S2_S1x2) (concat_congr (t := S2) (s₁ := S1) (s₂ := S1) 0 concatenates_S1_S1_S2_d0 ?_ ?_)
  · after_results_simp
    exact w4_arg7 m ρ c
  · after_results_simp
    exact w4_arg9 m ρ c
theorem w5_v43 : W5 m ρ c (Proc.devRef .tc main_v43) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v43) = _
  after_results_simp
  exact w4_v43 m ρ c
theorem w5_v27 : W5 m ρ c (Proc.devRef .tc main_v27) = (shapeCast S25000x1 (val_main_v40 (F := Ideal) (m ((c : Thread nD τ).loc main_arg1))) shapeCasts_S25000_S25000x1) := by
  show StableHlo.after hostOps2 (W4 m ρ c) (Proc.devRef .tc main_v27) = _
  after_results_simp
  exact w4_v27 m ρ c

/-! ## After the third region: both heads' logits, one per column -/

theorem w6_v61 : W6 m ρ c (Proc.devRef .tc main_v61) = (Layer2.out (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (shapeCast S25000x1 (val_main_v40 (F := Ideal) (m ((c : Thread nD τ).loc main_arg1))) shapeCasts_S25000_S25000x1) (shapeCast S1x512 (m ((c : Thread nD τ).loc main_arg5)) shapeCasts_S512_S1x512) (concatenate S512x2 1 [⟨S512x1, (m ((c : Thread nD τ).loc main_arg6))⟩, ⟨S512x1, (m ((c : Thread nD τ).loc main_arg8))⟩] concatenates_S512x1_S512x1_S512x2_d1) (shapeCast S1x2 (concatenate S2 0 [⟨S1, (m ((c : Thread nD τ).loc main_arg7))⟩, ⟨S1, (m ((c : Thread nD τ).loc main_arg9))⟩] concatenates_S1_S1_S2_d0) shapeCasts_S2_S1x2)) := by
  refine (W6_arr m ρ c 6).trans ((Layer2.final (V5 m ρ) c).trans ?_)
  show Layer2.out (W5 m ρ c (Proc.devRef .tc main_v56)) (W5 m ρ c (Proc.devRef .tc main_v43)) (W5 m ρ c (Proc.devRef .tc main_v27)) (W5 m ρ c (Proc.devRef .tc main_v59)) (W5 m ρ c (Proc.devRef .tc main_v57)) (W5 m ρ c (Proc.devRef .tc main_v60)) = _
  rw [w5_v56 m ρ c, w5_v43 m ρ c, w5_v27 m ρ c, w5_v59 m ρ c, w5_v57 m ρ c, w5_v60 m ρ c]

/-! ## After the last stretch: each column sliced off and flattened is the reference's head -/

theorem w7_v63 : W7 m ρ c (Proc.devRef .tc main_v63)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v63) = _
  after_results_simp
  rw [w6_v61 m ρ c]
  exact Cert.Join.head0_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _ _ _ _ _
theorem w7_v65 : W7 m ρ c (Proc.devRef .tc main_v65)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  show StableHlo.after hostOps3 (W6 m ρ c) (Proc.devRef .tc main_v65) = _
  after_results_simp
  rw [w6_v61 m ρ c]
  exact Cert.Join.head1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _ _ _ _ _

end Cert.KernelIdeal.Walk

end
-- ==== Proof.lean ====
/-
  The certificate of a two-layer graph-convolution policy: a three-region kernel against its plain reference.

  Both programs compute, from the edge list, the degrees `deg = (number of incoming edges) + 1`, `dis = deg^(-1/2)`, the
  edge weights `dis[src] · dis[dst]` and the self-loop coefficients `dis²`; then twice
  `h ↦ relu ((Σ over edges into the node of weight · (h·W)[src] + (h·W) · dis²) + b)`; then two heads `h₂ · w + b`.
  The kernel runs the dense parts as three pipelined regions over 25 row blocks of 1000 nodes — `x·W₁`; combine, rectify
  and multiply by `W₂`; combine, rectify and apply both heads at once — and keeps the edge gathers and scatter-adds on
  the host, where they are the reference's own operations.  At the ideal values the roundings to bf16 before each
  matrix product are the identity, so region by region the kernel's output array is the reference's stage, index
  by index, with the same additions and multiplications in the same order; no law of the extended reals that needs
  finiteness is used, and the precondition is never opened.

  The three frames: the two kernel programs' are the generated frame certificates; the reference's is its generated
  run with the results dropped.  The ideal pass rewrote nothing, so there is nothing to preserve.  For the value
  claim the kernel's run is taken with its two result buffers named (`Named.run_named`), the contents of those buffers
  are walked back through the seven segments of @main (`Walk.w7_v63`, `Walk.w7_v65`) to the reference's two result
  stages of the kernel's own arguments, and the reference's generated run ends at the same stages of arguments that agree.
-/
import proofs.«159074_j11647951306787_2_alg».proof.Defs
import proofs.«159074_j11647951306787_2_alg».proof.Proof.Gen.Kernel
import proofs.«159074_j11647951306787_2_alg».proof.Proof.Gen.Kernel.Skeleton
import proofs.«159074_j11647951306787_2_alg».proof.Proof.Gen.Kernel.Launch
import proofs.«159074_j11647951306787_2_alg».proof.Proof.Gen.Kernel.Points
import proofs.«159074_j11647951306787_2_alg».proof.Proof.Gen.Kernel.Frame
import proofs.«159074_j11647951306787_2_alg».proof.Proof.Gen.KernelIdeal
import proofs.«159074_j11647951306787_2_alg».proof.Proof.Gen.KernelIdeal.Skeleton
import proofs.«159074_j11647951306787_2_alg».proof.Proof.Gen.KernelIdeal.Launch
import proofs.«159074_j11647951306787_2_alg».proof.Proof.Gen.KernelIdeal.Points
import proofs.«159074_j11647951306787_2_alg».proof.Proof.Gen.KernelIdeal.Frame
import proofs.«159074_j11647951306787_2_alg».proof.Proof.Gen.ReferenceIdeal
import proofs.«159074_j11647951306787_2_alg».proof.Proof.Gen.Pre_finite_inputs
import proofs.«159074_j11647951306787_2_alg».proof.Proof.Gen.ReferenceIdeal.Run
import proofs.«159074_j11647951306787_2_alg».proof.Proof.Gen.ReferenceIdeal.Read
import proofs.«159074_j11647951306787_2_alg».proof.Proof.KRun
import proofs.«159074_j11647951306787_2_alg».proof.Proof.Walk2
import Idealize.ShloMosaic.Adequacy
import Idealize.ShloMosaic.Init

noncomputable section

namespace Cert.Proof

open Idealize.ShloMosaic Idealize.SL.Sem

/-- The kernel's frame, at the word level: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end, from memories that agree on the arguments, with the reference's two head stages of those arguments. -/
theorem algebraic : Cert.algebraic_KernelIdeal_ReferenceIdeal := by
  intro m ρ m' ρ' _ hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Named.run_named (F := Ideal) m ρ)
    obtain ⟨h63, h65, hargs⟩ := h c
    exact ⟨h63.trans (Cert.KernelIdeal.Walk.w7_v63 m ρ c), h65.trans (Cert.KernelIdeal.Walk.w7_v65 m ρ c), hargs⟩
  · refine (θ_run Cert.ReferenceIdeal.defs _ _).mono (fun r h c => ?_) (Cert.ReferenceIdeal.Value.run (F := Ideal) m' ρ')
    obtain ⟨h76, h81, hargs⟩ := h c
    obtain ⟨a0, a1, a2, a3, a4, a5, a6, a7, a8, a9⟩ := hagree c
    refine ⟨h76.trans ?_, h81.trans ?_, hargs⟩
    · rw [Cert.ReferenceIdeal.Read.val_main_v76_eq, a0, a1, a2, a3, a4, a5, a6, a7]
    · rw [Cert.ReferenceIdeal.Read.val_main_v81_eq, a0, a1, a2, a3, a4, a5, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
